-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x131072x128 : Shape := ⟨3, ![4, 131072, 128]⟩
abbrev S4x131072 : Shape := ⟨2, ![4, 131072]⟩
abbrev S16384x1 : Shape := ⟨2, ![16384, 1]⟩
abbrev S4x500x128 : Shape := ⟨3, ![4, 500, 128]⟩
abbrev S4x500 : Shape := ⟨2, ![4, 500]⟩
abbrev S4x200x500 : Shape := ⟨3, ![4, 200, 500]⟩
abbrev S4x200 : Shape := ⟨2, ![4, 200]⟩
abbrev S4x100x200 : Shape := ⟨3, ![4, 100, 200]⟩
abbrev S4x100 : Shape := ⟨2, ![4, 100]⟩
abbrev S4x1x100 : Shape := ⟨3, ![4, 1, 100]⟩
abbrev S4x1 : Shape := ⟨2, ![4, 1]⟩
abbrev S_ : Shape := ⟨0, ![]⟩

class Facts : Prop where
  bcast_S_S4x131072x128 : S_.BroadcastsInDim S4x131072x128 (![] : Fin 0 → Fin S4x131072x128.rank)
  reducesTo_S4x131072x128_S_d0_1_2 : S4x131072x128.ReducesTo [0, 1, 2] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S4x500x128 : S_.BroadcastsInDim S4x500x128 (![] : Fin 0 → Fin S4x500x128.rank)
  reducesTo_S4x500x128_S_d0_1_2 : S4x500x128.ReducesTo [0, 1, 2] S_
  bcast_S_S4x500 : S_.BroadcastsInDim S4x500 (![] : Fin 0 → Fin S4x500.rank)
  reducesTo_S4x500_S_d0_1 : S4x500.ReducesTo [0, 1] S_
  bcast_S_S4x200x500 : S_.BroadcastsInDim S4x200x500 (![] : Fin 0 → Fin S4x200x500.rank)
  reducesTo_S4x200x500_S_d0_1_2 : S4x200x500.ReducesTo [0, 1, 2] S_
  bcast_S_S4x200 : S_.BroadcastsInDim S4x200 (![] : Fin 0 → Fin S4x200.rank)
  reducesTo_S4x200_S_d0_1 : S4x200.ReducesTo [0, 1] S_
  bcast_S_S4x100x200 : S_.BroadcastsInDim S4x100x200 (![] : Fin 0 → Fin S4x100x200.rank)
  reducesTo_S4x100x200_S_d0_1_2 : S4x100x200.ReducesTo [0, 1, 2] S_
  bcast_S_S4x100 : S_.BroadcastsInDim S4x100 (![] : Fin 0 → Fin S4x100.rank)
  reducesTo_S4x100_S_d0_1 : S4x100.ReducesTo [0, 1] S_
  bcast_S_S4x1x100 : S_.BroadcastsInDim S4x1x100 (![] : Fin 0 → Fin S4x1x100.rank)
  reducesTo_S4x1x100_S_d0_1_2 : S4x1x100.ReducesTo [0, 1, 2] S_
  bcast_S_S4x1 : S_.BroadcastsInDim S4x1 (![] : Fin 0 → Fin S4x1.rank)
  reducesTo_S4x1_S_d0_1 : S4x1.ReducesTo [0, 1] S_
  bcast_S_S4x131072 : S_.BroadcastsInDim S4x131072 (![] : Fin 0 → Fin S4x131072.rank)
  reducesTo_S4x131072_S_d0_1 : S4x131072.ReducesTo [0, 1] S_

variable [Facts]

def fn_part3 {F : FTy → Type} [FloatOps F] (main_v48 : IVec S_ 1) (main_v50 : IVec S4x131072 1) : IVec S_ 1 :=
  let main_c_19 : IVec S_ 1 := constantI S_ 1 1#1
  let main_v51 : IVec S_ 1 := (fun x v => Host.reduce IntOp.andi x v reducesTo_S4x131072_S_d0_1 h_S_) main_v50 main_c_19
  let main_v52 : IVec S_ 1 := andi main_v48 main_v51
  main_v52

def fn_part2 {F : FTy → Type} [FloatOps F] (main_arg1 : IVec S4x131072 32) (main_arg8 : FVec F S4x100 .f32) (main_arg9 : FVec F S4x1x100 .f32) (main_arg10 : FVec F S4x1 .f32) (main_v33 : IVec S_ 1) : IVec S_ 1 :=
  let main_v34 : FVec F S4x100 .f32 := Host.absf main_arg8
  let main_cst_12 : FVec F S_ .f32 := constant S_ .f32 0x7F800000#32
  let main_v35 : FVec F S4x100 .f32 := broadcastInDim S4x100 ![] bcast_S_S4x100 main_cst_12
  let main_v36 : IVec S4x100 1 := cmpf .olt main_v34 main_v35
  let main_c_13 : IVec S_ 1 := constantI S_ 1 1#1
  let main_v37 : IVec S_ 1 := (fun x v => Host.reduce IntOp.andi x v reducesTo_S4x100_S_d0_1 h_S_) main_v36 main_c_13
  let main_v38 : IVec S_ 1 := andi main_v33 main_v37
  let main_v39 : FVec F S4x1x100 .f32 := Host.absf main_arg9
  let main_cst_14 : FVec F S_ .f32 := constant S_ .f32 0x7F800000#32
  let main_v40 : FVec F S4x1x100 .f32 := broadcastInDim S4x1x100 ![] bcast_S_S4x1x100 main_cst_14
  let main_v41 : IVec S4x1x100 1 := cmpf .olt main_v39 main_v40
  let main_c_15 : IVec S_ 1 := constantI S_ 1 1#1
  let main_v42 : IVec S_ 1 := (fun x v => Host.reduce IntOp.andi x v reducesTo_S4x1x100_S_d0_1_2 h_S_) main_v41 main_c_15
  let main_v43 : IVec S_ 1 := andi main_v38 main_v42
  let main_v44 : FVec F S4x1 .f32 := Host.absf main_arg10
  let main_cst_16 : FVec F S_ .f32 := constant S_ .f32 0x7F800000#32
  let main_v45 : FVec F S4x1 .f32 := broadcastInDim S4x1 ![] bcast_S_S4x1 main_cst_16
  let main_v46 : IVec S4x1 1 := cmpf .olt main_v44 main_v45
  let main_c_17 : IVec S_ 1 := constantI S_ 1 1#1
  let main_v47 : IVec S_ 1 := (fun x v => Host.reduce IntOp.andi x v reducesTo_S4x1_S_d0_1 h_S_) main_v46 main_c_17
  let main_v48 : IVec S_ 1 := andi main_v43 main_v47
  let main_c_18 : IVec S_ 32 := constantI S_ 32 0#32
  let main_v49 : IVec S4x131072 32 := broadcastInDim S4x131072 ![] bcast_S_S4x131072 main_c_18
  let main_v50 : IVec S4x131072 1 := cmpi .sge main_arg1 main_v49
  fn_part3 (F := F) main_v48 main_v50

def fn_part1 {F : FTy → Type} [FloatOps F] (main_arg1 : IVec S4x131072 32) (main_arg5 : FVec F S4x200x500 .f32) (main_arg6 : FVec F S4x200 .f32) (main_arg7 : FVec F S4x100x200 .f32) (main_arg8 : FVec F S4x100 .f32) (main_arg9 : FVec F S4x1x100 .f32) (main_arg10 : FVec F S4x1 .f32) (main_v13 : IVec S_ 1) (main_v16 : IVec S4x500 1) : IVec S_ 1 :=
  let main_c_5 : IVec S_ 1 := constantI S_ 1 1#1
  let main_v17 : IVec S_ 1 := (fun x v => Host.reduce IntOp.andi x v reducesTo_S4x500_S_d0_1 h_S_) main_v16 main_c_5
  let main_v18 : IVec S_ 1 := andi main_v13 main_v17
  let main_v19 : FVec F S4x200x500 .f32 := Host.absf main_arg5
  let main_cst_6 : FVec F S_ .f32 := constant S_ .f32 0x7F800000#32
  let main_v20 : FVec F S4x200x500 .f32 := broadcastInDim S4x200x500 ![] bcast_S_S4x200x500 main_cst_6
  let main_v21 : IVec S4x200x500 1 := cmpf .olt main_v19 main_v20
  let main_c_7 : IVec S_ 1 := constantI S_ 1 1#1
  let main_v22 : IVec S_ 1 := (fun x v => Host.reduce IntOp.andi x v reducesTo_S4x200x500_S_d0_1_2 h_S_) main_v21 main_c_7
  let main_v23 : IVec S_ 1 := andi main_v18 main_v22
  let main_v24 : FVec F S4x200 .f32 := Host.absf main_arg6
  let main_cst_8 : FVec F S_ .f32 := constant S_ .f32 0x7F800000#32
  let main_v25 : FVec F S4x200 .f32 := broadcastInDim S4x200 ![] bcast_S_S4x200 main_cst_8
  let main_v26 : IVec S4x200 1 := cmpf .olt main_v24 main_v25
  let main_c_9 : IVec S_ 1 := constantI S_ 1 1#1
  let main_v27 : IVec S_ 1 := (fun x v => Host.reduce IntOp.andi x v reducesTo_S4x200_S_d0_1 h_S_) main_v26 main_c_9
  let main_v28 : IVec S_ 1 := andi main_v23 main_v27
  let main_v29 : FVec F S4x100x200 .f32 := Host.absf main_arg7
  let main_cst_10 : FVec F S_ .f32 := constant S_ .f32 0x7F800000#32
  let main_v30 : FVec F S4x100x200 .f32 := broadcastInDim S4x100x200 ![] bcast_S_S4x100x200 main_cst_10
  let main_v31 : IVec S4x100x200 1 := cmpf .olt main_v29 main_v30
  let main_c_11 : IVec S_ 1 := constantI S_ 1 1#1
  let main_v32 : IVec S_ 1 := (fun x v => Host.reduce IntOp.andi x v reducesTo_S4x100x200_S_d0_1_2 h_S_) main_v31 main_c_11
  let main_v33 : IVec S_ 1 := andi main_v28 main_v32
  fn_part2 (F := F) main_arg1 main_arg8 main_arg9 main_arg10 main_v33

def fn {F : FTy → Type} [FloatOps F] (main_arg0 : FVec F S4x131072x128 .f32) (main_arg1 : IVec S4x131072 32) (main_arg2 : FVec F S16384x1 .f32) (main_arg3 : FVec F S4x500x128 .f32) (main_arg4 : FVec F S4x500 .f32) (main_arg5 : FVec F S4x200x500 .f32) (main_arg6 : FVec F S4x200 .f32) (main_arg7 : FVec F S4x100x200 .f32) (main_arg8 : FVec F S4x100 .f32) (main_arg9 : FVec F S4x1x100 .f32) (main_arg10 : FVec F S4x1 .f32) : IVec S_ 1 :=
  let main_v0 : FVec F S4x131072x128 .f32 := Host.absf main_arg0
  let main_cst : FVec F S_ .f32 := constant S_ .f32 0x7F800000#32
  let main_v1 : FVec F S4x131072x128 .f32 := broadcastInDim S4x131072x128 ![] bcast_S_S4x131072x128 main_cst
  let main_v2 : IVec S4x131072x128 1 := cmpf .olt main_v0 main_v1
  let main_c : IVec S_ 1 := constantI S_ 1 1#1
  let main_v3 : IVec S_ 1 := (fun x v => Host.reduce IntOp.andi x v reducesTo_S4x131072x128_S_d0_1_2 h_S_) main_v2 main_c
  let main_v4 : FVec F S16384x1 .f32 := Host.absf main_arg2
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S4x500x128 .f32 := Host.absf main_arg3
  let main_cst_2 : FVec F S_ .f32 := constant S_ .f32 0x7F800000#32
  let main_v10 : FVec F S4x500x128 .f32 := broadcastInDim S4x500x128 ![] bcast_S_S4x500x128 main_cst_2
  let main_v11 : IVec S4x500x128 1 := cmpf .olt main_v9 main_v10
  let main_c_3 : IVec S_ 1 := constantI S_ 1 1#1
  let main_v12 : IVec S_ 1 := (fun x v => Host.reduce IntOp.andi x v reducesTo_S4x500x128_S_d0_1_2 h_S_) main_v11 main_c_3
  let main_v13 : IVec S_ 1 := andi main_v8 main_v12
  let main_v14 : FVec F S4x500 .f32 := Host.absf main_arg4
  let main_cst_4 : FVec F S_ .f32 := constant S_ .f32 0x7F800000#32
  let main_v15 : FVec F S4x500 .f32 := broadcastInDim S4x500 ![] bcast_S_S4x500 main_cst_4
  let main_v16 : IVec S4x500 1 := cmpf .olt main_v14 main_v15
  fn_part1 (F := F) main_arg1 main_arg5 main_arg6 main_arg7 main_arg8 main_arg9 main_arg10 main_v13 main_v16
-- ==== Kernel.lean ====
abbrev S4x131072x128 : Shape := ⟨3, ![4, 131072, 128]⟩
abbrev S4x131072 : Shape := ⟨2, ![4, 131072]⟩
abbrev S16384x1 : Shape := ⟨2, ![16384, 1]⟩
abbrev S4x500x128 : Shape := ⟨3, ![4, 500, 128]⟩
abbrev S4x500 : Shape := ⟨2, ![4, 500]⟩
abbrev S4x200x500 : Shape := ⟨3, ![4, 200, 500]⟩
abbrev S4x200 : Shape := ⟨2, ![4, 200]⟩
abbrev S4x100x200 : Shape := ⟨3, ![4, 100, 200]⟩
abbrev S4x100 : Shape := ⟨2, ![4, 100]⟩
abbrev S4x1x100 : Shape := ⟨3, ![4, 1, 100]⟩
abbrev S4x1 : Shape := ⟨2, ![4, 1]⟩
abbrev S4x128x500 : Shape := ⟨3, ![4, 128, 500]⟩
abbrev S_ : Shape := ⟨0, ![]⟩
abbrev S4x128x512 : Shape := ⟨3, ![4, 128, 512]⟩
abbrev S4x1x500 : Shape := ⟨3, ![4, 1, 500]⟩
abbrev S4x1x512 : Shape := ⟨3, ![4, 1, 512]⟩
abbrev S4x500x200 : Shape := ⟨3, ![4, 500, 200]⟩
abbrev S4x512x200 : Shape := ⟨3, ![4, 512, 200]⟩
abbrev S4x512x256 : Shape := ⟨3, ![4, 512, 256]⟩
abbrev S4x1x200 : Shape := ⟨3, ![4, 1, 200]⟩
abbrev S4x1x256 : Shape := ⟨3, ![4, 1, 256]⟩
abbrev S4x200x100 : Shape := ⟨3, ![4, 200, 100]⟩
abbrev S4x256x100 : Shape := ⟨3, ![4, 256, 100]⟩
abbrev S4x256x128 : Shape := ⟨3, ![4, 256, 128]⟩
abbrev S4x1x128 : Shape := ⟨3, ![4, 1, 128]⟩
abbrev S4x1x1 : Shape := ⟨3, ![4, 1, 1]⟩
abbrev S4x131072x1 : Shape := ⟨3, ![4, 131072, 1]⟩
abbrev S1x4096x128 : Shape := ⟨3, ![1, 4096, 128]⟩
abbrev S1x128x512 : Shape := ⟨3, ![1, 128, 512]⟩
abbrev S1x1x512 : Shape := ⟨3, ![1, 1, 512]⟩
abbrev S1x512x256 : Shape := ⟨3, ![1, 512, 256]⟩
abbrev S1x1x256 : Shape := ⟨3, ![1, 1, 256]⟩
abbrev S1x256x128 : Shape := ⟨3, ![1, 256, 128]⟩
abbrev S1x1x128 : Shape := ⟨3, ![1, 1, 128]⟩
abbrev S1x1x1 : Shape := ⟨3, ![1, 1, 1]⟩
abbrev S1x4096x1 : Shape := ⟨3, ![1, 4096, 1]⟩
abbrev S4096x128 : Shape := ⟨2, ![4096, 128]⟩
abbrev S128x512 : Shape := ⟨2, ![128, 512]⟩
abbrev S4096x512 : Shape := ⟨2, ![4096, 512]⟩
abbrev S1x512 : Shape := ⟨2, ![1, 512]⟩
abbrev S512x256 : Shape := ⟨2, ![512, 256]⟩
abbrev S4096x256 : Shape := ⟨2, ![4096, 256]⟩
abbrev S1x256 : Shape := ⟨2, ![1, 256]⟩
abbrev S256x128 : Shape := ⟨2, ![256, 128]⟩
abbrev S1x128 : Shape := ⟨2, ![1, 128]⟩
abbrev S4096 : Shape := ⟨1, ![4096]⟩
abbrev S4096x1 : Shape := ⟨2, ![4096, 1]⟩
abbrev S1x1 : Shape := ⟨2, ![1, 1]⟩
abbrev S524288 : Shape := ⟨1, ![524288]⟩
abbrev S16384 : Shape := ⟨1, ![16384]⟩
abbrev S524288x1 : Shape := ⟨2, ![524288, 1]⟩

abbrev nBuf : Space → Nat
  | .hbm => 57
  | .vmem => 20
  | .smem => 0
  | _ => 0

abbrev bufTy : (tb : Table) → Fin (tcTables nBuf tb) → BufTy
  | .hbm, ⟨0, _⟩ => ⟨S4x131072x128, .f32⟩
  | .hbm, ⟨1, _⟩ => ⟨S4x131072, .i32⟩
  | .hbm, ⟨2, _⟩ => ⟨S16384x1, .f32⟩
  | .hbm, ⟨3, _⟩ => ⟨S4x500x128, .f32⟩
  | .hbm, ⟨4, _⟩ => ⟨S4x500, .f32⟩
  | .hbm, ⟨5, _⟩ => ⟨S4x200x500, .f32⟩
  | .hbm, ⟨6, _⟩ => ⟨S4x200, .f32⟩
  | .hbm, ⟨7, _⟩ => ⟨S4x100x200, .f32⟩
  | .hbm, ⟨8, _⟩ => ⟨S4x100, .f32⟩
  | .hbm, ⟨9, _⟩ => ⟨S4x1x100, .f32⟩
  | .hbm, ⟨10, _⟩ => ⟨S4x1, .f32⟩
  | .hbm, ⟨11, _⟩ => ⟨S4x128x500, .f32⟩
  | .hbm, ⟨12, _⟩ => ⟨S_, .i32⟩
  | .hbm, ⟨13, _⟩ => ⟨S_, .f32⟩
  | .hbm, ⟨14, _⟩ => ⟨S4x128x512, .f32⟩
  | .hbm, ⟨15, _⟩ => ⟨S4x128x512, .bf16⟩
  | .hbm, ⟨16, _⟩ => ⟨S4x1x500, .f32⟩
  | .hbm, ⟨17, _⟩ => ⟨S_, .i32⟩
  | .hbm, ⟨18, _⟩ => ⟨S_, .f32⟩
  | .hbm, ⟨19, _⟩ => ⟨S4x1x512, .f32⟩
  | .hbm, ⟨20, _⟩ => ⟨S4x500x200, .f32⟩
  | .hbm, ⟨21, _⟩ => ⟨S_, .i32⟩
  | .hbm, ⟨22, _⟩ => ⟨S_, .f32⟩
  | .hbm, ⟨23, _⟩ => ⟨S4x512x200, .f32⟩
  | .hbm, ⟨24, _⟩ => ⟨S_, .i32⟩
  | .hbm, ⟨25, _⟩ => ⟨S_, .f32⟩
  | .hbm, ⟨26, _⟩ => ⟨S4x512x256, .f32⟩
  | .hbm, ⟨27, _⟩ => ⟨S4x512x256, .bf16⟩
  | .hbm, ⟨28, _⟩ => ⟨S4x1x200, .f32⟩
  | .hbm, ⟨29, _⟩ => ⟨S_, .i32⟩
  | .hbm, ⟨30, _⟩ => ⟨S_, .f32⟩
  | .hbm, ⟨31, _⟩ => ⟨S4x1x256, .f32⟩
  | .hbm, ⟨32, _⟩ => ⟨S4x200x100, .f32⟩
  | .hbm, ⟨33, _⟩ => ⟨S_, .i32⟩
  | .hbm, ⟨34, _⟩ => ⟨S_, .f32⟩
  | .hbm, ⟨35, _⟩ => ⟨S4x256x100, .f32⟩
  | .hbm, ⟨36, _⟩ => ⟨S_, .i32⟩
  | .hbm, ⟨37, _⟩ => ⟨S_, .f32⟩
  | .hbm, ⟨38, _⟩ => ⟨S4x256x128, .f32⟩
  | .hbm, ⟨39, _⟩ => ⟨S4x256x128, .bf16⟩
  | .hbm, ⟨40, _⟩ => ⟨S4x1x100, .f32⟩
  | .hbm, ⟨41, _⟩ => ⟨S_, .i32⟩
  | .hbm, ⟨42, _⟩ => ⟨S_, .f32⟩
  | .hbm, ⟨43, _⟩ => ⟨S4x1x128, .f32⟩
  | .hbm, ⟨44, _⟩ => ⟨S_, .i32⟩
  | .hbm, ⟨45, _⟩ => ⟨S_, .f32⟩
  | .hbm, ⟨46, _⟩ => ⟨S4x1x128, .f32⟩
  | .hbm, ⟨47, _⟩ => ⟨S4x1x1, .f32⟩
  | .hbm, ⟨48, _⟩ => ⟨S4x131072x1, .f32⟩
  | .hbm, ⟨49, _⟩ => ⟨S524288, .f32⟩
  | .hbm, ⟨50, _⟩ => ⟨S524288, .i32⟩
  | .hbm, ⟨51, _⟩ => ⟨S_, .f32⟩
  | .hbm, ⟨52, _⟩ => ⟨S16384, .f32⟩
  | .hbm, ⟨53, _⟩ => ⟨S524288x1, .i32⟩
  | .hbm, ⟨54, _⟩ => ⟨S16384, .f32⟩
  | .hbm, ⟨55, _⟩ => ⟨S16384x1, .f32⟩
  | .hbm, ⟨56, _⟩ => ⟨S16384x1, .f32⟩
  | .local _ .vmem, ⟨0, _⟩ => ⟨S1x4096x128, .f32⟩
  | .local _ .vmem, ⟨1, _⟩ => ⟨S1x4096x128, .f32⟩
  | .local _ .vmem, ⟨2, _⟩ => ⟨S1x128x512, .bf16⟩
  | .local _ .vmem, ⟨3, _⟩ => ⟨S1x128x512, .bf16⟩
  | .local _ .vmem, ⟨4, _⟩ => ⟨S1x1x512, .f32⟩
  | .local _ .vmem, ⟨5, _⟩ => ⟨S1x1x512, .f32⟩
  | .local _ .vmem, ⟨6, _⟩ => ⟨S1x512x256, .bf16⟩
  | .local _ .vmem, ⟨7, _⟩ => ⟨S1x512x256, .bf16⟩
  | .local _ .vmem, ⟨8, _⟩ => ⟨S1x1x256, .f32⟩
  | .local _ .vmem, ⟨9, _⟩ => ⟨S1x1x256, .f32⟩
  | .local _ .vmem, ⟨10, _⟩ => ⟨S1x256x128, .bf16⟩
  | .local _ .vmem, ⟨11, _⟩ => ⟨S1x256x128, .bf16⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x1, .f32⟩
  | .local _ .vmem, ⟨17, _⟩ => ⟨S1x1x1, .f32⟩
  | .local _ .vmem, ⟨18, _⟩ => ⟨S1x4096x1, .f32⟩
  | .local _ .vmem, ⟨19, _⟩ => ⟨S1x4096x1, .f32⟩
  | _, _ => ⟨S4x131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_call2_v0 : Ref sig .tc := ⟨.hbm, 22, rfl⟩
abbrev main_v6 : Ref sig .tc := ⟨.hbm, 23, rfl⟩
abbrev main_c_2 : Ref sig .tc := ⟨.hbm, 24, rfl⟩
abbrev main_call3_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_3 : Ref sig .tc := ⟨.hbm, 29, rfl⟩
abbrev main_call4_v0 : Ref sig .tc := ⟨.hbm, 30, rfl⟩
abbrev main_v10 : Ref sig .tc := ⟨.hbm, 31, rfl⟩
abbrev main_v11 : Ref sig .tc := ⟨.hbm, 32, rfl⟩
abbrev main_c_4 : Ref sig .tc := ⟨.hbm, 33, rfl⟩
abbrev main_call5_v0 : Ref sig .tc := ⟨.hbm, 34, rfl⟩
abbrev main_v12 : Ref sig .tc := ⟨.hbm, 35, rfl⟩
abbrev main_c_5 : Ref sig .tc := ⟨.hbm, 36, rfl⟩
abbrev main_call6_v0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c_6 : Ref sig .tc := ⟨.hbm, 41, rfl⟩
abbrev main_call7_v0 : Ref sig .tc := ⟨.hbm, 42, rfl⟩
abbrev main_v16 : Ref sig .tc := ⟨.hbm, 43, rfl⟩
abbrev main_c_7 : Ref sig .tc := ⟨.hbm, 44, rfl⟩
abbrev main_call8_v0 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4096x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S4x500x128_S4x128x500_0_2_1 : S4x500x128.Transposes [0, 2, 1] S4x128x500
  pads_S4x128x500_S4x128x512_000_000_0120 : S4x128x500.Pads (![0, 0, 0] : Fin 3 → Nat) ![0, 0, 12] ![0, 0, 0] S4x128x512
  h_S_ : 0 < S_.numel
  bitsLt_bf16_f32 : FTy.bits .bf16 < FTy.bits .f32
  shapeCasts_S4x500_S4x1x500 : S4x500.ShapeCasts S4x1x500
  pads_S4x1x500_S4x1x512_000_000_0120 : S4x1x500.Pads (![0, 0, 0] : Fin 3 → Nat) ![0, 0, 12] ![0, 0, 0] S4x1x512
  transposes_S4x200x500_S4x500x200_0_2_1 : S4x200x500.Transposes [0, 2, 1] S4x500x200
  pads_S4x500x200_S4x512x200_000_0120_000 : S4x500x200.Pads (![0, 0, 0] : Fin 3 → Nat) ![0, 12, 0] ![0, 0, 0] S4x512x200
  pads_S4x512x200_S4x512x256_000_000_0560 : S4x512x200.Pads (![0, 0, 0] : Fin 3 → Nat) ![0, 0, 56] ![0, 0, 0] S4x512x256
  shapeCasts_S4x200_S4x1x200 : S4x200.ShapeCasts S4x1x200
  pads_S4x1x200_S4x1x256_000_000_0560 : S4x1x200.Pads (![0, 0, 0] : Fin 3 → Nat) ![0, 0, 56] ![0, 0, 0] S4x1x256
  transposes_S4x100x200_S4x200x100_0_2_1 : S4x100x200.Transposes [0, 2, 1] S4x200x100
  pads_S4x200x100_S4x256x100_000_0560_000 : S4x200x100.Pads (![0, 0, 0] : Fin 3 → Nat) ![0, 56, 0] ![0, 0, 0] S4x256x100
  pads_S4x256x100_S4x256x128_000_000_0280 : S4x256x100.Pads (![0, 0, 0] : Fin 3 → Nat) ![0, 0, 28] ![0, 0, 0] S4x256x128
  shapeCasts_S4x100_S4x1x100 : S4x100.ShapeCasts S4x1x100
  pads_S4x1x100_S4x1x128_000_000_0280 : S4x1x100.Pads (![0, 0, 0] : Fin 3 → Nat) ![0, 0, 28] ![0, 0, 0] S4x1x128
  shapeCasts_S4x1_S4x1x1 : S4x1.ShapeCasts S4x1x1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S4096x512 : S1x512.Broadcasts S4096x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S4096x256 : S1x256.Broadcasts S4096x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S4096x128 : S1x128.Broadcasts S4096x128
  reduces_S4096x128_S4096 : S4096x128.Reduces [1] S4096
  shapeCasts_S4096_S4096x1 : S4096.ShapeCasts S4096x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S4096x1 : S1x1.Broadcasts S4096x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  shapeCasts_S4x131072x1_S524288 : S4x131072x1.ShapeCasts S524288
  shapeCasts_S4x131072_S524288 : S4x131072.ShapeCasts S524288
  bcast_S_S16384 : S_.BroadcastsInDim S16384 (![] : Fin 0 → Fin S16384.rank)
  bcast_S524288_S524288x1_0 : S524288.BroadcastsInDim S524288x1 (![0] : Fin 1 → Fin S524288x1.rank)
  shapeCasts_S16384_S16384x1 : S16384.ShapeCasts S16384x1
  dot_S4096x128_S128x512_S4096x512_1_0_0_1_n_n_wf : DotDims.WF S4096x128 S128x512 S4096x512 [1] [0] [0] [1] [] []
  dot_S4096x512_S512x256_S4096x256_1_0_0_1_n_n_wf : DotDims.WF S4096x512 S512x256 S4096x256 [1] [0] [0] [1] [] []
  dot_S4096x256_S256x128_S4096x128_1_0_0_1_n_n_wf : DotDims.WF S4096x256 S256x128 S4096x128 [1] [0] [0] [1] [] []
  scatter_S16384_S524288x1_S524288_n_0_0_1_wf : ScatterDims.WF S16384 S524288x1 S524288 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x131072x128.size a
  hwx0_0 : ∀ i : grid0.Coords, EltTy.bits .f32 = 32 ∨ (Rect.block (s := S4x131072x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x128x512.size a
  hwx0_1 : ∀ i : grid0.Coords, EltTy.bits .bf16 = 32 ∨ (Rect.block (s := S4x128x512) S1x128x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4x1x512.size a
  hwx0_2 : ∀ i : grid0.Coords, EltTy.bits .f32 = 32 ∨ (Rect.block (s := S4x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S4x512x256.size a
  hwx0_3 : ∀ i : grid0.Coords, EltTy.bits .bf16 = 32 ∨ (Rect.block (s := S4x512x256) S1x512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S4x1x256.size a
  hwx0_4 : ∀ i : grid0.Coords, EltTy.bits .f32 = 32 ∨ (Rect.block (s := S4x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x128.size a ≤ S4x256x128.size a
  hwx0_5 : ∀ i : grid0.Coords, EltTy.bits .bf16 = 32 ∨ (Rect.block (s := S4x256x128) S1x256x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S4x1x128.size a
  hwx0_6 : ∀ i : grid0.Coords, EltTy.bits .f32 = 32 ∨ (Rect.block (s := S4x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S4x1x128.size a
  hwx0_7 : ∀ i : grid0.Coords, EltTy.bits .f32 = 32 ∨ (Rect.block (s := S4x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S4x1x1.size a
  hwx0_8 : ∀ i : grid0.Coords, EltTy.bits .f32 = 32 ∨ (Rect.block (s := S4x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x4096x1.size a ≤ S4x131072x1.size a
  hwx0_9 : ∀ i : grid0.Coords, EltTy.bits .f32 = 32 ∨ (Rect.block (s := S4x131072x1) S1x4096x1.size (cc0_transform_9 i) (hinb0_9 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x256x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x1x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x4096x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x131072x128 : Shape := ⟨3, ![4, 131072, 128]⟩
abbrev S4x131072 : Shape := ⟨2, ![4, 131072]⟩
abbrev S16384x1 : Shape := ⟨2, ![16384, 1]⟩
abbrev S4x500x128 : Shape := ⟨3, ![4, 500, 128]⟩
abbrev S4x500 : Shape := ⟨2, ![4, 500]⟩
abbrev S4x200x500 : Shape := ⟨3, ![4, 200, 500]⟩
abbrev S4x200 : Shape := ⟨2, ![4, 200]⟩
abbrev S4x100x200 : Shape := ⟨3, ![4, 100, 200]⟩
abbrev S4x100 : Shape := ⟨2, ![4, 100]⟩
abbrev S4x1x100 : Shape := ⟨3, ![4, 1, 100]⟩
abbrev S4x1 : Shape := ⟨2, ![4, 1]⟩
abbrev S4x131072x500 : Shape := ⟨3, ![4, 131072, 500]⟩
abbrev S4x1x500 : Shape := ⟨3, ![4, 1, 500]⟩
abbrev S_ : Shape := ⟨0, ![]⟩
abbrev S4x131072x200 : Shape := ⟨3, ![4, 131072, 200]⟩
abbrev S4x1x200 : Shape := ⟨3, ![4, 1, 200]⟩
abbrev S4x131072x100 : Shape := ⟨3, ![4, 131072, 100]⟩
abbrev S4x131072x1 : Shape := ⟨3, ![4, 131072, 1]⟩
abbrev S4x1x1 : Shape := ⟨3, ![4, 1, 1]⟩
abbrev S524288 : Shape := ⟨1, ![524288]⟩
abbrev S524288x1 : Shape := ⟨2, ![524288, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x131072x128, .f32⟩
  | .hbm, ⟨1, _⟩ => ⟨S4x131072, .i32⟩
  | .hbm, ⟨2, _⟩ => ⟨S16384x1, .f32⟩
  | .hbm, ⟨3, _⟩ => ⟨S4x500x128, .f32⟩
  | .hbm, ⟨4, _⟩ => ⟨S4x500, .f32⟩
  | .hbm, ⟨5, _⟩ => ⟨S4x200x500, .f32⟩
  | .hbm, ⟨6, _⟩ => ⟨S4x200, .f32⟩
  | .hbm, ⟨7, _⟩ => ⟨S4x100x200, .f32⟩
  | .hbm, ⟨8, _⟩ => ⟨S4x100, .f32⟩
  | .hbm, ⟨9, _⟩ => ⟨S4x1x100, .f32⟩
  | .hbm, ⟨10, _⟩ => ⟨S4x1, .f32⟩
  | .hbm, ⟨11, _⟩ => ⟨S4x131072x500, .f32⟩
  | .hbm, ⟨12, _⟩ => ⟨S4x1x500, .f32⟩
  | .hbm, ⟨13, _⟩ => ⟨S4x131072x500, .f32⟩
  | .hbm, ⟨14, _⟩ => ⟨S4x131072x500, .f32⟩
  | .hbm, ⟨15, _⟩ => ⟨S_, .f32⟩
  | .hbm, ⟨16, _⟩ => ⟨S4x131072x500, .f32⟩
  | .hbm, ⟨17, _⟩ => ⟨S4x131072x500, .f32⟩
  | .hbm, ⟨18, _⟩ => ⟨S4x131072x200, .f32⟩
  | .hbm, ⟨19, _⟩ => ⟨S4x1x200, .f32⟩
  | .hbm, ⟨20, _⟩ => ⟨S4x131072x200, .f32⟩
  | .hbm, ⟨21, _⟩ => ⟨S4x131072x200, .f32⟩
  | .hbm, ⟨22, _⟩ => ⟨S_, .f32⟩
  | .hbm, ⟨23, _⟩ => ⟨S4x131072x200, .f32⟩
  | .hbm, ⟨24, _⟩ => ⟨S4x131072x200, .f32⟩
  | .hbm, ⟨25, _⟩ => ⟨S4x131072x100, .f32⟩
  | .hbm, ⟨26, _⟩ => ⟨S4x1x100, .f32⟩
  | .hbm, ⟨27, _⟩ => ⟨S4x131072x100, .f32⟩
  | .hbm, ⟨28, _⟩ => ⟨S4x131072x100, .f32⟩
  | .hbm, ⟨29, _⟩ => ⟨S_, .f32⟩
  | .hbm, ⟨30, _⟩ => ⟨S4x131072x100, .f32⟩
  | .hbm, ⟨31, _⟩ => ⟨S4x131072x100, .f32⟩
  | .hbm, ⟨32, _⟩ => ⟨S4x131072x1, .f32⟩
  | .hbm, ⟨33, _⟩ => ⟨S4x1x1, .f32⟩
  | .hbm, ⟨34, _⟩ => ⟨S4x131072x1, .f32⟩
  | .hbm, ⟨35, _⟩ => ⟨S4x131072x1, .f32⟩
  | .hbm, ⟨36, _⟩ => ⟨S524288, .i32⟩
  | .hbm, ⟨37, _⟩ => ⟨S524288x1, .f32⟩
  | .hbm, ⟨38, _⟩ => ⟨S_, .i32⟩
  | .hbm, ⟨39, _⟩ => ⟨S524288, .i32⟩
  | .hbm, ⟨40, _⟩ => ⟨S524288, .i1⟩
  | .hbm, ⟨41, _⟩ => ⟨S_, .i32⟩
  | .hbm, ⟨42, _⟩ => ⟨S524288, .i32⟩
  | .hbm, ⟨43, _⟩ => ⟨S524288, .i32⟩
  | .hbm, ⟨44, _⟩ => ⟨S524288, .i32⟩
  | .hbm, ⟨45, _⟩ => ⟨S524288x1, .i32⟩
  | .hbm, ⟨46, _⟩ => ⟨S16384x1, .f32⟩
  | _, _ => ⟨S4x131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call2_cst : Ref sig .tc := ⟨.hbm, 29, rfl⟩
abbrev main_call2_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]

class Facts₀ : Prop where
  bcast_S4x500_S4x1x500_0_2 : S4x500.BroadcastsInDim S4x1x500 (![0, 2] : Fin 2 → Fin S4x1x500.rank)
  bcast_S4x1x500_S4x131072x500_0_1_2 : S4x1x500.BroadcastsInDim S4x131072x500 (![0, 1, 2] : Fin 3 → Fin S4x131072x500.rank)
  bcast_S_S4x131072x500 : S_.BroadcastsInDim S4x131072x500 (![] : Fin 0 → Fin S4x131072x500.rank)
  bcast_S4x200_S4x1x200_0_2 : S4x200.BroadcastsInDim S4x1x200 (![0, 2] : Fin 2 → Fin S4x1x200.rank)
  bcast_S4x1x200_S4x131072x200_0_1_2 : S4x1x200.BroadcastsInDim S4x131072x200 (![0, 1, 2] : Fin 3 → Fin S4x131072x200.rank)
  bcast_S_S4x131072x200 : S_.BroadcastsInDim S4x131072x200 (![] : Fin 0 → Fin S4x131072x200.rank)
  bcast_S4x100_S4x1x100_0_2 : S4x100.BroadcastsInDim S4x1x100 (![0, 2] : Fin 2 → Fin S4x1x100.rank)
  bcast_S4x1x100_S4x131072x100_0_1_2 : S4x1x100.BroadcastsInDim S4x131072x100 (![0, 1, 2] : Fin 3 → Fin S4x131072x100.rank)
  bcast_S_S4x131072x100 : S_.BroadcastsInDim S4x131072x100 (![] : Fin 0 → Fin S4x131072x100.rank)
  bcast_S4x1_S4x1x1_0_2 : S4x1.BroadcastsInDim S4x1x1 (![0, 2] : Fin 2 → Fin S4x1x1.rank)
  bcast_S4x1x1_S4x131072x1_0_1_2 : S4x1x1.BroadcastsInDim S4x131072x1 (![0, 1, 2] : Fin 3 → Fin S4x131072x1.rank)
  shapeCasts_S4x131072_S524288 : S4x131072.ShapeCasts S524288
  shapeCasts_S4x131072x1_S524288x1 : S4x131072x1.ShapeCasts S524288x1
  bcast_S_S524288 : S_.BroadcastsInDim S524288 (![] : Fin 0 → Fin S524288.rank)
  bcast_S524288_S524288x1_0 : S524288.BroadcastsInDim S524288x1 (![0] : Fin 1 → Fin S524288x1.rank)
  dot_S4x131072x128_S4x500x128_S4x131072x500_2_2_1_1_0_0_wf : DotDims.WF S4x131072x128 S4x500x128 S4x131072x500 [2] [2] [1] [1] [0] [0]
  dot_S4x131072x500_S4x200x500_S4x131072x200_2_2_1_1_0_0_wf : DotDims.WF S4x131072x500 S4x200x500 S4x131072x200 [2] [2] [1] [1] [0] [0]
  dot_S4x131072x200_S4x100x200_S4x131072x100_2_2_1_1_0_0_wf : DotDims.WF S4x131072x200 S4x100x200 S4x131072x100 [2] [2] [1] [1] [0] [0]
  dot_S4x131072x100_S4x1x100_S4x131072x1_2_2_1_1_0_0_wf : DotDims.WF S4x131072x100 S4x1x100 S4x131072x1 [2] [2] [1] [1] [0] [0]
  scatter_S16384x1_S524288x1_S524288x1_1_0_0_1_wf : ScatterDims.WF S16384x1 S524288x1 S524288x1 [1] [0] [0] 1

variable [Facts₀]

def dot_S4x131072x128_S4x500x128_S4x131072x500_2_2_1_1_0_0 : DotDims S4x131072x128 S4x500x128 S4x131072x500 where
  lhsContracting := [2]
  rhsContracting := [2]
  lhsNonContracting := [1]
  rhsNonContracting := [1]
  lhsBatch := [0]
  rhsBatch := [0]
  wf := dot_S4x131072x128_S4x500x128_S4x131072x500_2_2_1_1_0_0_wf
def dot_S4x131072x500_S4x200x500_S4x131072x200_2_2_1_1_0_0 : DotDims S4x131072x500 S4x200x500 S4x131072x200 where
  lhsContracting := [2]
  rhsContracting := [2]
  lhsNonContracting := [1]
  rhsNonContracting := [1]
  lhsBatch := [0]
  rhsBatch := [0]
  wf := dot_S4x131072x500_S4x200x500_S4x131072x200_2_2_1_1_0_0_wf
def dot_S4x131072x200_S4x100x200_S4x131072x100_2_2_1_1_0_0 : DotDims S4x131072x200 S4x100x200 S4x131072x100 where
  lhsContracting := [2]
  rhsContracting := [2]
  lhsNonContracting := [1]
  rhsNonContracting := [1]
  lhsBatch := [0]
  rhsBatch := [0]
  wf := dot_S4x131072x200_S4x100x200_S4x131072x100_2_2_1_1_0_0_wf
def dot_S4x131072x100_S4x1x100_S4x131072x1_2_2_1_1_0_0 : DotDims S4x131072x100 S4x1x100 S4x131072x1 where
  lhsContracting := [2]
  rhsContracting := [2]
  lhsNonContracting := [1]
  rhsNonContracting := [1]
  lhsBatch := [0]
  rhsBatch := [0]
  wf := dot_S4x131072x100_S4x1x100_S4x131072x1_2_2_1_1_0_0_wf
def scatter_S16384x1_S524288x1_S524288x1_1_0_0_1 : ScatterDims S16384x1 S524288x1 S524288x1 where
  updateWindowDims := [1]
  insertedWindowDims := [0]
  scatterDimsToOperandDims := [0]
  indexVectorDim := 1
  wf := scatter_S16384x1_S524288x1_S524288x1_1_0_0_1_wf

class Facts : Prop extends Facts₀ where

variable [Facts]
-- ==== Proof.Spec.lean ====
/-
  The per-atom network as one function of a feature row, and why zero padding of its hidden widths changes nothing.

  A dense layer sends a row h (K entries) to max(h · w + b, 0) (B entries). Padding w, b and the incoming row with zeros —
  K up to K', B up to B' — gives the same outputs on the first B entries and zeros after them: a padded input entry meets a
  zero weight row, and a padded output column has zero weights and zero bias, so it is max(0, 0) = 0. On the extended reals
  0 · a = 0 for every a, the infinities included, so no finiteness is needed. Three such layers and a final inner product
  with a padded weight row make the per-atom energy; by the layer law the padded network equals the unpadded one.
-/
import Idealize.ShloMosaic.PureOps.Ideal

noncomputable section

namespace Cert.Spec

open Finset

/-- A vector extended by zeros (or cut) to K' entries. -/
def padv {K : ℕ} (K' : ℕ) (v : Fin K → EReal) : Fin K' → EReal :=
  fun k => if h : k.val < K then v ⟨k.val, h⟩ else 0

/-- A matrix extended by zeros to K' rows and B' columns. -/
def padm {K B : ℕ} (K' B' : ℕ) (w : Fin K → Fin B → EReal) : Fin K' → Fin B' → EReal :=
  fun k j => if h : k.val < K ∧ j.val < B then w ⟨k.val, h.1⟩ ⟨j.val, h.2⟩ else 0

/-- One dense layer with a rectifier: column j of max(h · w + b, 0). -/
def layer {K B : ℕ} (h : Fin K → EReal) (w : Fin K → Fin B → EReal) (b : Fin B → EReal) : Fin B → EReal :=
  fun j => max (∑ k, h k * w k j + b j) 0

/-- The closing inner product with a weight row, plus a bias. -/
def head {K : ℕ} (h : Fin K → EReal) (w : Fin K → EReal) (b : EReal) : EReal := ∑ k, h k * w k + b

/-- Three layers and the head: the energy of one atom from its feature row. -/
def mlp {d0 d1 d2 d3 : ℕ} (x : Fin d0 → EReal) (w1 : Fin d0 → Fin d1 → EReal) (b1 : Fin d1 → EReal)
    (w2 : Fin d1 → Fin d2 → EReal) (b2 : Fin d2 → EReal) (w3 : Fin d2 → Fin d3 → EReal) (b3 : Fin d3 → EReal)
    (w4 : Fin d3 → EReal) (b4 : EReal) : EReal :=
  head (layer (layer (layer x w1 b1) w2 b2) w3 b3) w4 b4

/-- A sum over K' terms that vanish from position K on is the sum of its first K terms. -/
theorem sum_pad {K K' : ℕ} (hK : K ≤ K') (f : Fin K' → EReal) (g : Fin K → EReal)
    (h1 : ∀ (k : Fin K') (h : k.val < K), f k = g ⟨k.val, h⟩) (h0 : ∀ k : Fin K', ¬ k.val < K → f k = 0) :
    ∑ k, f k = ∑ k, g k := by
  rw [Finset.sum_fin_eq_sum_range, Finset.sum_fin_eq_sum_range]
  rw [← Finset.sum_subset (Finset.range_mono hK) (fun i hi hni => by
    rw [Finset.mem_range] at hi hni
    rw [dif_pos hi]
    exact h0 ⟨i, hi⟩ hni)]
  refine Finset.sum_congr rfl fun i hi => ?_
  rw [Finset.mem_range] at hi
  rw [dif_pos (lt_of_lt_of_le hi hK), dif_pos hi]
  exact h1 ⟨i, lt_of_lt_of_le hi hK⟩ hi

theorem padv_self {K : ℕ} (v : Fin K → EReal) : padv K v = v := by
  funext k; unfold padv; rw [dif_pos k.isLt]

/-- THE LAYER LAW: a layer of zero-padded data is the zero-padded layer. -/
theorem layer_pad {K B K' B' : ℕ} (hK : K ≤ K') (h : Fin K → EReal) (w : Fin K → Fin B → EReal) (b : Fin B → EReal) :
    layer (padv K' h) (padm K' B' w) (padv B' b) = padv B' (layer h w b) := by
  funext j
  by_cases hj : j.val < B
  · have e : padv B' (layer h w b) j = layer h w b ⟨j.val, hj⟩ := by unfold padv; rw [dif_pos hj]
    rw [e]
    unfold layer
    have eb : padv B' b j = b ⟨j.val, hj⟩ := by unfold padv; rw [dif_pos hj]
    rw [eb, sum_pad hK (fun k => padv K' h k * padm K' B' w k j) (fun k => h k * w k ⟨j.val, hj⟩)
      (fun k hk => by unfold padv padm; rw [dif_pos hk, dif_pos ⟨hk, hj⟩])
      (fun k hk => by unfold padv; rw [dif_neg hk, zero_mul])]
  · have e : padv B' (layer h w b) j = 0 := by unfold padv; rw [dif_neg hj]
    rw [e]
    unfold layer
    have eb : padv B' b j = 0 := by unfold padv; rw [dif_neg hj]
    have es : ∑ k, padv K' h k * padm K' B' w k j = 0 :=
      Finset.sum_eq_zero fun k _ => by
        unfold padm; rw [dif_neg (fun hh => hj hh.2), mul_zero]
    rw [eb, es, add_zero, max_self]

/-- The head of a zero-padded row against a zero-padded weight row is the head of the rows themselves. -/
theorem head_pad {K K' : ℕ} (hK : K ≤ K') (h : Fin K → EReal) (w : Fin K → EReal) (b : EReal) :
    head (padv K' h) (padv K' w) b = head h w b := by
  unfold head
  rw [sum_pad hK (fun k => padv K' h k * padv K' w k) (fun k => h k * w k)
    (fun k hk => by unfold padv; rw [dif_pos hk, dif_pos hk])
    (fun k hk => by unfold padv; rw [dif_neg hk, zero_mul])]

/-- THE NETWORK LAW: with every hidden width zero-padded (the input width kept) the energy is unchanged. -/
theorem mlp_pad {d0 d1 d2 d3 d1' d2' d3' : ℕ} (h1 : d1 ≤ d1') (h2 : d2 ≤ d2') (h3 : d3 ≤ d3')
    (x : Fin d0 → EReal) (w1 : Fin d0 → Fin d1 → EReal) (b1 : Fin d1 → EReal)
    (w2 : Fin d1 → Fin d2 → EReal) (b2 : Fin d2 → EReal) (w3 : Fin d2 → Fin d3 → EReal) (b3 : Fin d3 → EReal)
    (w4 : Fin d3 → EReal) (b4 : EReal) :
    mlp x (padm d0 d1' w1) (padv d1' b1) (padm d1' d2' w2) (padv d2' b2) (padm d2' d3' w3) (padv d3' b3) (padv d3' w4) b4
      = mlp x w1 b1 w2 b2 w3 b3 w4 b4 := by
  unfold mlp
  have e1 : layer x (padm d0 d1' w1) (padv d1' b1) = padv d1' (layer x w1 b1) := by
    have := layer_pad (K' := d0) (B' := d1') (le_refl d0) x w1 b1
    rwa [padv_self] at this
  rw [e1, layer_pad h1, layer_pad h2, head_pad h3]

end Cert.Spec

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.Body.lean ====
/-
  What the kernel body stores, read at a row of the output block.

  The body takes a block of 4096 feature rows and the padded weights of one atom type, and stores a [1, 4096, 1] block
  of energies. At the ideal values a change of float format is the identity and a matrix product into the zero
  accumulator is the plain sum of products, so row r of the stored block is the per-atom network (three dense layers with
  a rectifier, then an inner product with a weight row and a bias) of feature row r of the loaded block.
-/
import proofs.«170574_j8675833938301_2_alg».proof.Proof.Gen.KernelIdeal.Frame
import proofs.«170574_j8675833938301_2_alg».proof.Proof.Spec
import proofs.«170574_j8675833938301_2_alg».proof.Proof.LibPlainMatmul
import proofs.«170574_j8675833938301_2_alg».proof.Proof.LibKeepdims
import Idealize.ShloMosaic.Lib.ValueLayout
import Idealize.ShloMosaic.Lib.Pipeline.Value

set_option maxRecDepth 16384

noncomputable section

namespace Cert.KernelIdeal.Body

open Idealize.ShloMosaic Idealize.ShloMosaic.ValueIdx Cert.KernelIdeal Cert.KernelIdeal.Gen Cert.Spec
open Cert.KernelIdeal.Facts₀ Cert.KernelIdeal.Facts

/-- A dense layer before its rectifier, at (r, j): the row of h against column j of the weights, plus the bias. The weights
    arrive as a [1, K, B] block and the bias as a [1, 1, B] block, each cast down and the bias spread over the rows. -/
theorem dense_row {A K B : ℕ} {φ₁ φ₂ : FTy} (h : FVec Ideal ⟨2, ![A, K]⟩ φ₁) (w : FVec Ideal ⟨3, ![1, K, B]⟩ φ₂)
    (b : FVec Ideal ⟨3, ![1, 1, B]⟩ .f32)
    (hw : (⟨3, ![1, K, B]⟩ : Shape).ShapeCasts ⟨2, ![K, B]⟩) (hb : (⟨3, ![1, 1, B]⟩ : Shape).ShapeCasts ⟨2, ![1, B]⟩)
    (hbb : (⟨2, ![1, B]⟩ : Shape).Broadcasts ⟨2, ![A, B]⟩)
    (d : DotDims ⟨2, ![A, K]⟩ ⟨2, ![K, B]⟩ ⟨2, ![A, B]⟩) (hd : d = DotDims.plain A K B) (r : Fin A) (j : Fin B) :
    addf (matmul d none h (shapeCast ⟨2, ![K, B]⟩ w hw) (constant ⟨2, ![A, B]⟩ .f32 0x00000000#32))
        (broadcastTo ⟨2, ![A, B]⟩ (shapeCast ⟨2, ![1, B]⟩ b hb) hbb) (ix2 r j)
      = ∑ k : Fin K, h (ix2 r k) * w (ix3 (0 : Fin 1) k j) + b (ix3 (0 : Fin 1) (0 : Fin 1) j) := by
  subst hd
  rw [addf_apply]
  show FloatOps.matmul (DotDims.plain A K B) none h _ _ (ix2 r j) + _ = _
  rw [matmul_plain_zero_apply, broadcastTo_1b_ab_apply, shapeCast_1ab_ab_apply]
  congr 1
  refine Finset.sum_congr rfl fun k _ => ?_
  rw [shapeCast_1ab_ab_apply]

/-- The same layer with its rectifier and the change of format after it, as a function of the column: the layer of row r. -/
theorem relu_dense_fun {A K B : ℕ} {φ₁ φ₂ ψ : FTy} (h : FVec Ideal ⟨2, ![A, K]⟩ φ₁) (w : FVec Ideal ⟨3, ![1, K, B]⟩ φ₂)
    (b : FVec Ideal ⟨3, ![1, 1, B]⟩ .f32)
    (hw : (⟨3, ![1, K, B]⟩ : Shape).ShapeCasts ⟨2, ![K, B]⟩) (hb : (⟨3, ![1, 1, B]⟩ : Shape).ShapeCasts ⟨2, ![1, B]⟩)
    (hbb : (⟨2, ![1, B]⟩ : Shape).Broadcasts ⟨2, ![A, B]⟩)
    (d : DotDims ⟨2, ![A, K]⟩ ⟨2, ![K, B]⟩ ⟨2, ![A, B]⟩) (hd : d = DotDims.plain A K B) (hlt : ψ.bits < FTy.f32.bits) (r : Fin A) :
    (fun j : Fin B => (truncf ψ (maximumf
        (addf (matmul d none h (shapeCast ⟨2, ![K, B]⟩ w hw) (constant ⟨2, ![A, B]⟩ .f32 0x00000000#32))
          (broadcastTo ⟨2, ![A, B]⟩ (shapeCast ⟨2, ![1, B]⟩ b hb) hbb))
        (broadcast ⟨2, ![A, B]⟩ (Scalar.ofBits (F := Ideal) .f32 0x00000000#32))) hlt : FVec Ideal ⟨2, ![A, B]⟩ ψ) (ix2 r j))
      = layer (fun k => h (ix2 r k)) (fun k j => w (ix3 (0 : Fin 1) k j)) (fun j => b (ix3 (0 : Fin 1) (0 : Fin 1) j)) := by
  funext j
  rw [truncf_apply, maximumf_apply, dense_row h w b hw hb hbb d hd r j, broadcast_apply]
  unfold layer
  congr 1
  exact Ideal.ofBits_zero_f32

variable (v0 : Vec Ideal S1x4096x128 .f32) (v3 : Vec Ideal S1x128x512 .bf16) (v6 : Vec Ideal S1x1x512 .f32)
  (v13 : Vec Ideal S1x512x256 .bf16) (v16 : Vec Ideal S1x1x256 .f32) (v23 : Vec Ideal S1x256x128 .bf16)
  (v26 : Vec Ideal S1x1x128 .f32) (v32 : Vec Ideal S1x1x128 .f32) (v38 : Vec Ideal S1x1x1 .f32)

/-- The first two layers of row r. -/
abbrev hidden2 (r : Fin 4096) : Fin 256 → EReal :=
  layer (layer (fun f : Fin 128 => v0 (ix3 (0 : Fin 1) r f)) (fun f k => v3 (ix3 (0 : Fin 1) f k)) (fun k => v6 (ix3 (0 : Fin 1) (0 : Fin 1) k)))
    (fun k j => v13 (ix3 (0 : Fin 1) k j)) (fun j => v16 (ix3 (0 : Fin 1) (0 : Fin 1) j))

/-- The third layer before its rectifier, at (r, j). -/
theorem pay2_apply (r : Fin 4096) (j : Fin 128) :
    k0_pay2 (F := Ideal) v0 v3 v6 v13 v16 v23 v26 (ix2 r j)
      = ∑ k : Fin 256, hidden2 v0 v3 v6 v13 v16 r k * v23 (ix3 (0 : Fin 1) k j) + v26 (ix3 (0 : Fin 1) (0 : Fin 1) j) := by
  unfold k0_pay2
  refine (dense_row _ v23 v26 _ _ _ _ rfl r j).trans ?_
  congr 1
  refine Finset.sum_congr rfl fun k _ => ?_
  congr 1
  refine (congrFun (relu_dense_fun _ v13 v16 _ _ _ _ rfl _ r) k).trans ?_
  refine congrFun (congrArg (fun h => layer h _ _) ?_) k
  refine (relu_dense_fun _ v3 v6 _ _ _ _ rfl _ r).trans ?_
  refine congrArg (fun h => layer h _ _) ?_
  funext f
  rw [truncf_apply, shapeCast_1ab_ab_apply]

/-- The zero the rectifier compares with. -/
theorem pay3_apply (i : S4096x128.Idx) : k0_pay3 (F := Ideal) i = 0 := by
  unfold k0_pay3
  rw [broadcast_apply]
  exact Ideal.ofBits_zero_f32

/-- The stored value at row r: the rectified third layer against the closing weight row, summed over its 128 entries,
    plus the closing bias. -/
theorem pay1_apply (v29 v30 : FVec Ideal S4096x128 .f32) (r : Fin 4096) :
    k0_pay1 (F := Ideal) v29 v30 v32 v38 (ix3 (0 : Fin 1) r (0 : Fin 1))
      = ∑ k : Fin 128, max (v29 (ix2 r k)) (v30 (ix2 r k)) * v32 (ix3 (0 : Fin 1) (0 : Fin 1) k) + v38 (ix3 (0 : Fin 1) (0 : Fin 1) (0 : Fin 1)) := by
  unfold k0_pay1
  rw [shapeCast_ab_1ab_apply, addf_apply, Cert.LibKeepdims.shapeCast_a_a1_apply]
  refine congrArg₂ (· + ·) ((Cert.LibKeepdims.multiReduction_add_lastAxis_apply _ _ _ _ _ r).trans ?_) ?_
  · refine Finset.sum_congr rfl fun k _ => ?_
    rw [mulf_apply, maximumf_apply, broadcastTo_1b_ab_apply, shapeCast_1ab_ab_apply]
  · rw [broadcastTo_1b_ab_apply, shapeCast_1ab_ab_apply]

theorem hz3 : (![0, 0, 0] : Fin 3 → Nat) = fun _ => 0 := funext fun a => by fin_cases a <;> rfl

/-- ROW r OF THE STORED BLOCK is the per-atom network of feature row r of the loaded block, with the loaded (padded)
    weights and biases of the block's atom type. -/
theorem out_apply (x0 : Vec Ideal S1x4096x128 .f32) (x1 : Vec Ideal S1x128x512 .bf16) (x2 : Vec Ideal S1x1x512 .f32)
    (x3 : Vec Ideal S1x512x256 .bf16) (x4 : Vec Ideal S1x1x256 .f32) (x5 : Vec Ideal S1x256x128 .bf16)
    (x6 : Vec Ideal S1x1x128 .f32) (x7 : Vec Ideal S1x1x128 .f32) (x8 : Vec Ideal S1x1x1 .f32) (r : Fin 4096) :
    out0_9 (F := Ideal) x0 x1 x2 x3 x4 x5 x6 x7 x8 (ix3 (0 : Fin 1) r (0 : Fin 1))
      = mlp (fun f : Fin 128 => x0 (ix3 (0 : Fin 1) r f)) (fun f k => x1 (ix3 (0 : Fin 1) f k)) (fun k => x2 (ix3 (0 : Fin 1) (0 : Fin 1) k))
          (fun k j => x3 (ix3 (0 : Fin 1) k j)) (fun j => x4 (ix3 (0 : Fin 1) (0 : Fin 1) j))
          (fun k j => x5 (ix3 (0 : Fin 1) k j)) (fun j => x6 (ix3 (0 : Fin 1) (0 : Fin 1) j))
          (fun k => x7 (ix3 (0 : Fin 1) (0 : Fin 1) k)) (x8 (ix3 (0 : Fin 1) (0 : Fin 1) (0 : Fin 1))) := by
  unfold out0_9
  rw [View.canon_unit_zero hz3]
  simp only [View.ld_unit_zero (S := S1x4096x128) hz3, View.ld_unit_zero (S := S1x128x512) hz3, View.ld_unit_zero (S := S1x1x512) hz3,
    View.ld_unit_zero (S := S1x512x256) hz3, View.ld_unit_zero (S := S1x1x256) hz3, View.ld_unit_zero (S := S1x256x128) hz3,
    View.ld_unit_zero (S := S1x1x128) hz3, View.ld_unit_zero (S := S1x1x1) hz3]
  rw [pay1_apply]
  unfold mlp head
  congr 1
  refine Finset.sum_congr rfl fun k _ => ?_
  congr 1
  rw [pay2_apply, pay3_apply]
  rfl

end Cert.KernelIdeal.Body

end
-- ==== Proof.HostPre.lean ====
/-
  The weight arrays as the kernel's region finds them.

  Before the region the host transposes each weight matrix (so that a layer is "row times matrix"), pads every hidden
  width with zeros up to a multiple of 128, and changes the format of the matrices (the identity at the ideal values).
  Read by coordinates, for atom type t, each array the region stages is the zero-padded transpose of the argument it was
  made from: the matrix of layer 1 at (f, k) is W1(t, k, f) for k < 500 and 0 beyond; the bias rows are the biases followed
  by zeros; the closing bias is b4(t, 0).
-/
import proofs.«170574_j8675833938301_2_alg».proof.Proof.Gen.KernelIdeal.Frame
import proofs.«170574_j8675833938301_2_alg».proof.Proof.Spec
import Idealize.ShloMosaic.Lib.StableHlo.Run
import Idealize.ShloMosaic.Lib.ValueLayout
import Idealize.ShloMosaic.Lib.KernelVsHost
import Idealize.ShloMosaic.Lib.Pipeline.Value

set_option maxRecDepth 16384

noncomputable section

namespace Cert.KernelIdeal.HostPre

open Idealize.ShloMosaic Idealize.ShloMosaic.ValueIdx Cert.KernelIdeal Cert.KernelIdeal.Gen Idealize.ShloMosaic.StableHlo
open Idealize.SL.Sem Cert.Spec

/-! ## A zero padding of the last or of the middle axis of a stack of matrices, read at an index -/

/-- Padding the LAST axis after the data: inside the data the operand, beyond it the padding value. -/
theorem pad3_last {n a b b' : ℕ} (hi : Fin 3 → ℕ) (x : (⟨3, ![n, a, b]⟩ : Shape).Idx → EReal) {u : Shape} (z : u.Idx → EReal)
    (h : (⟨3, ![n, a, b]⟩ : Shape).Pads ![0, 0, 0] hi ![0, 0, 0] ⟨3, ![n, a, b']⟩) (hu : 0 < u.numel)
    (t : Fin n) (i : Fin a) (j : Fin b') :
    pad ⟨3, ![n, a, b']⟩ ![0, 0, 0] hi ![0, 0, 0] x z h hu (ix3 t i j)
      = if hj : j.val < b then x (ix3 t i ⟨j.val, hj⟩) else z (Shape.Idx.first hu) := by
  by_cases hj : j.val < b
  · rw [dif_pos hj]
    refine pad_apply_of_inside _ _ _ x z h hu (ix3 t i j) (ix3 t i ⟨j.val, hj⟩) fun ax => ?_
    match ax with
    | ⟨0, _⟩ => show t.val = 0 + t.val * (0 + 1); omega
    | ⟨1, _⟩ => show i.val = 0 + i.val * (0 + 1); omega
    | ⟨2, _⟩ => show j.val = 0 + j.val * (0 + 1); omega
  · rw [dif_neg hj]
    refine pad_apply_of_not_inside _ _ _ x z h hu (ix3 t i j) 2 fun hh => hj ?_
    have h3 : (j.val - 0) / (0 + 1) < b := hh.2.2
    omega

/-- Padding the MIDDLE axis after the data. -/
theorem pad3_mid {n a a' b : ℕ} (hi : Fin 3 → ℕ) (x : (⟨3, ![n, a, b]⟩ : Shape).Idx → EReal) {u : Shape} (z : u.Idx → EReal)
    (h : (⟨3, ![n, a, b]⟩ : Shape).Pads ![0, 0, 0] hi ![0, 0, 0] ⟨3, ![n, a', b]⟩) (hu : 0 < u.numel)
    (t : Fin n) (i : Fin a') (j : Fin b) :
    pad ⟨3, ![n, a', b]⟩ ![0, 0, 0] hi ![0, 0, 0] x z h hu (ix3 t i j)
      = if hi' : i.val < a then x (ix3 t ⟨i.val, hi'⟩ j) else z (Shape.Idx.first hu) := by
  by_cases hi' : i.val < a
  · rw [dif_pos hi']
    refine pad_apply_of_inside _ _ _ x z h hu (ix3 t i j) (ix3 t ⟨i.val, hi'⟩ j) fun ax => ?_
    match ax with
    | ⟨0, _⟩ => show t.val = 0 + t.val * (0 + 1); omega
    | ⟨1, _⟩ => show i.val = 0 + i.val * (0 + 1); omega
    | ⟨2, _⟩ => show j.val = 0 + j.val * (0 + 1); omega
  · rw [dif_neg hi']
    refine pad_apply_of_not_inside _ _ _ x z h hu (ix3 t i j) 1 fun hh => hi' ?_
    have h3 : (i.val - 0) / (0 + 1) < a := hh.2.2
    omega

/-- The padding value the host uses: the integer zero converted, the float zero. -/
abbrev zpad : S_.Idx → EReal := sitofp (F := Ideal) .f32 (constantI S_ 32 0#32)

theorem zpad_apply (i : S_.Idx) : zpad i = 0 := sitofp_zero (φ := .f32)

/-- A bias [n, b] reshaped to [n, 1, b] reads, at (t, u, j), the bias at (t, j). -/
theorem shapeCast_nb_n1b_apply {n b : ℕ} (x : (⟨2, ![n, b]⟩ : Shape).Idx → EReal)
    (h : (⟨2, ![n, b]⟩ : Shape).ShapeCasts ⟨3, ![n, 1, b]⟩) (t : Fin n) (u : Fin 1) (j : Fin b) :
    shapeCast ⟨3, ![n, 1, b]⟩ x h (ix3 t u j) = x (ix2 t j) :=
  shapeCast_apply x h _ _ (by
    have hu : u.val = 0 := by omega
    rw [Shape.rowMajor_val_two, Shape.rowMajor_val_three]
    show t.val * b + j.val = (t.val * 1 + u.val) * b + j.val
    rw [hu, Nat.mul_one, Nat.add_zero])

variable (m : (ℓ : Loc nD τ sig) → Buf (Elt Ideal) ℓ) (c : Dev nD)

/-! ## The staged arrays as terms of the arguments -/

/-- The arrays the region's weight windows stage, as plain functions of their indices. -/
abbrev arr1 : S4x128x512.Idx → EReal := V m c main_v2
abbrev arr2 : S4x1x512.Idx → EReal := V m c main_v4
abbrev arr3 : S4x512x256.Idx → EReal := V m c main_v8
abbrev arr4 : S4x1x256.Idx → EReal := V m c main_v10
abbrev arr5 : S4x256x128.Idx → EReal := V m c main_v14
abbrev arr6 : S4x1x128.Idx → EReal := V m c main_v16
abbrev arr7 : S4x1x128.Idx → EReal := V m c main_v17
abbrev arr8 : S4x1x1.Idx → EReal := V m c main_v18

/-- The arguments the host made them from. -/
abbrev argW1 : S4x500x128.Idx → EReal := m (c, Proc.tc.devRef main_arg3)
abbrev argB1 : S4x500.Idx → EReal := m (c, Proc.tc.devRef main_arg4)
abbrev argW2 : S4x200x500.Idx → EReal := m (c, Proc.tc.devRef main_arg5)
abbrev argB2 : S4x200.Idx → EReal := m (c, Proc.tc.devRef main_arg6)
abbrev argW3 : S4x100x200.Idx → EReal := m (c, Proc.tc.devRef main_arg7)
abbrev argB3 : S4x100.Idx → EReal := m (c, Proc.tc.devRef main_arg8)
abbrev argW4 : S4x1x100.Idx → EReal := m (c, Proc.tc.devRef main_arg9)
abbrev argB4 : S4x1.Idx → EReal := m (c, Proc.tc.devRef main_arg10)

theorem V_v2 : arr1 m c
    = truncf (F := Ideal) .bf16 (pad S4x128x512 ![0, 0, 0] ![0, 0, 12] ![0, 0, 0]
        (transpose S4x128x500 [0, 2, 1] (argW1 m c) transposes_S4x500x128_S4x128x500_0_2_1)
        zpad pads_S4x128x500_S4x128x512_000_000_0120 h_S_) bitsLt_bf16_f32 := by
  dsimp only [arr1, arr2, arr3, arr4, arr5, arr6, arr7, arr8, argW1, argB1, argW2, argB2, argW3, argB3, argW4, argB4, Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem V_v4 : arr2 m c
    = pad S4x1x512 ![0, 0, 0] ![0, 0, 12] ![0, 0, 0]
        (shapeCast S4x1x500 (argB1 m c) shapeCasts_S4x500_S4x1x500)
        zpad pads_S4x1x500_S4x1x512_000_000_0120 h_S_ := by
  dsimp only [arr1, arr2, arr3, arr4, arr5, arr6, arr7, arr8, argW1, argB1, argW2, argB2, argW3, argB3, argW4, argB4, Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem V_v8 : arr3 m c
    = truncf (F := Ideal) .bf16 (pad S4x512x256 ![0, 0, 0] ![0, 0, 56] ![0, 0, 0]
        (pad S4x512x200 ![0, 0, 0] ![0, 12, 0] ![0, 0, 0]
          (transpose S4x500x200 [0, 2, 1] (argW2 m c) transposes_S4x200x500_S4x500x200_0_2_1)
          zpad pads_S4x500x200_S4x512x200_000_0120_000 h_S_)
        zpad pads_S4x512x200_S4x512x256_000_000_0560 h_S_) bitsLt_bf16_f32 := by
  dsimp only [arr1, arr2, arr3, arr4, arr5, arr6, arr7, arr8, argW1, argB1, argW2, argB2, argW3, argB3, argW4, argB4, Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem V_v10 : arr4 m c
    = pad S4x1x256 ![0, 0, 0] ![0, 0, 56] ![0, 0, 0]
        (shapeCast S4x1x200 (argB2 m c) shapeCasts_S4x200_S4x1x200)
        zpad pads_S4x1x200_S4x1x256_000_000_0560 h_S_ := by
  dsimp only [arr1, arr2, arr3, arr4, arr5, arr6, arr7, arr8, argW1, argB1, argW2, argB2, argW3, argB3, argW4, argB4, Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem V_v14 : arr5 m c
    = truncf (F := Ideal) .bf16 (pad S4x256x128 ![0, 0, 0] ![0, 0, 28] ![0, 0, 0]
        (pad S4x256x100 ![0, 0, 0] ![0, 56, 0] ![0, 0, 0]
          (transpose S4x200x100 [0, 2, 1] (argW3 m c) transposes_S4x100x200_S4x200x100_0_2_1)
          zpad pads_S4x200x100_S4x256x100_000_0560_000 h_S_)
        zpad pads_S4x256x100_S4x256x128_000_000_0280 h_S_) bitsLt_bf16_f32 := by
  dsimp only [arr1, arr2, arr3, arr4, arr5, arr6, arr7, arr8, argW1, argB1, argW2, argB2, argW3, argB3, argW4, argB4, Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem V_v16 : arr6 m c
    = pad S4x1x128 ![0, 0, 0] ![0, 0, 28] ![0, 0, 0]
        (shapeCast S4x1x100 (argB3 m c) shapeCasts_S4x100_S4x1x100)
        zpad pads_S4x1x100_S4x1x128_000_000_0280 h_S_ := by
  dsimp only [arr1, arr2, arr3, arr4, arr5, arr6, arr7, arr8, argW1, argB1, argW2, argB2, argW3, argB3, argW4, argB4, Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem V_v17 : arr7 m c
    = pad S4x1x128 ![0, 0, 0] ![0, 0, 28] ![0, 0, 0] (argW4 m c)
        zpad pads_S4x1x100_S4x1x128_000_000_0280 h_S_ := by
  dsimp only [arr1, arr2, arr3, arr4, arr5, arr6, arr7, arr8, argW1, argB1, argW2, argB2, argW3, argB3, argW4, argB4, Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

theorem V_v18 : arr8 m c
    = shapeCast S4x1x1 (argB4 m c) shapeCasts_S4x1_S4x1x1 := by
  dsimp only [arr1, arr2, arr3, arr4, arr5, arr6, arr7, arr8, argW1, argB1, argW2, argB2, argW3, argB3, argW4, argB4, Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  after_results
  rfl

/-! ## The staged arrays read by coordinates: zero-padded transposes -/

section Reads
variable {u : Shape} (z : u.Idx → EReal) (hu : 0 < u.numel) (hz : z (Shape.Idx.first hu) = 0)
include hz

/-- A weight stack [n, b, a] transposed to [n, a, b] and its last axis padded to b', as a matrix of atom type t. -/
theorem read_wpad1 {n a b b' : ℕ} {ψ : FTy} (hi : Fin 3 → ℕ) (W : (⟨3, ![n, b, a]⟩ : Shape).Idx → EReal)
    (ht : (⟨3, ![n, b, a]⟩ : Shape).Transposes [0, 2, 1] ⟨3, ![n, a, b]⟩)
    (hp : (⟨3, ![n, a, b]⟩ : Shape).Pads ![0, 0, 0] hi ![0, 0, 0] ⟨3, ![n, a, b']⟩) (hlt : ψ.bits < FTy.f32.bits) (t : Fin n) :
    (fun (f : Fin a) (k : Fin b') => (truncf ψ (pad ⟨3, ![n, a, b']⟩ ![0, 0, 0] hi ![0, 0, 0]
        (transpose ⟨3, ![n, a, b]⟩ [0, 2, 1] W ht) z hp hu : FVec Ideal ⟨3, ![n, a, b']⟩ .f32) hlt : FVec Ideal ⟨3, ![n, a, b']⟩ ψ) (ix3 t f k))
      = padm a b' (fun (f : Fin a) (j : Fin b) => W (ix3 t j f)) := by
  funext f k
  rw [truncf_apply, pad3_last]
  unfold padm
  by_cases hk : k.val < b
  · rw [dif_pos hk, dif_pos ⟨f.isLt, hk⟩]
    exact transpose_ix3_021_apply _ _ t f ⟨k.val, hk⟩
  · rw [dif_neg hk, dif_neg (fun h => hk h.2)]
    exact hz

/-- The same with the middle axis padded first (a to a'), then the last (b to b'). -/
theorem read_wpad2 {n a a' b b' : ℕ} {ψ : FTy} (hi1 hi2 : Fin 3 → ℕ) (W : (⟨3, ![n, b, a]⟩ : Shape).Idx → EReal)
    (ht : (⟨3, ![n, b, a]⟩ : Shape).Transposes [0, 2, 1] ⟨3, ![n, a, b]⟩)
    (hp1 : (⟨3, ![n, a, b]⟩ : Shape).Pads ![0, 0, 0] hi1 ![0, 0, 0] ⟨3, ![n, a', b]⟩)
    (hp2 : (⟨3, ![n, a', b]⟩ : Shape).Pads ![0, 0, 0] hi2 ![0, 0, 0] ⟨3, ![n, a', b']⟩) (hlt : ψ.bits < FTy.f32.bits) (t : Fin n) :
    (fun (k : Fin a') (j : Fin b') => (truncf ψ (pad ⟨3, ![n, a', b']⟩ ![0, 0, 0] hi2 ![0, 0, 0]
        (pad ⟨3, ![n, a', b]⟩ ![0, 0, 0] hi1 ![0, 0, 0] (transpose ⟨3, ![n, a, b]⟩ [0, 2, 1] W ht) z hp1 hu) z hp2 hu
          : FVec Ideal ⟨3, ![n, a', b']⟩ .f32) hlt : FVec Ideal ⟨3, ![n, a', b']⟩ ψ) (ix3 t k j))
      = padm a' b' (fun (k : Fin a) (j : Fin b) => W (ix3 t j k)) := by
  funext k j
  rw [truncf_apply, pad3_last]
  unfold padm
  by_cases hj : j.val < b
  · rw [dif_pos hj, pad3_mid]
    by_cases hk : k.val < a
    · rw [dif_pos hk, dif_pos ⟨hk, hj⟩]
      exact transpose_ix3_021_apply _ _ t ⟨k.val, hk⟩ ⟨j.val, hj⟩
    · rw [dif_neg hk, dif_neg (fun h => hk h.1)]
      exact hz
  · rw [dif_neg hj, dif_neg (fun h => hj h.2)]
    exact hz

/-- A bias [n, b] reshaped to a row per atom type and padded to b'. -/
theorem read_bpad {n b b' : ℕ} (hi : Fin 3 → ℕ) (B : (⟨2, ![n, b]⟩ : Shape).Idx → EReal)
    (hs : (⟨2, ![n, b]⟩ : Shape).ShapeCasts ⟨3, ![n, 1, b]⟩)
    (hp : (⟨3, ![n, 1, b]⟩ : Shape).Pads ![0, 0, 0] hi ![0, 0, 0] ⟨3, ![n, 1, b']⟩) (t : Fin n) :
    (fun k : Fin b' => pad ⟨3, ![n, 1, b']⟩ ![0, 0, 0] hi ![0, 0, 0] (shapeCast ⟨3, ![n, 1, b]⟩ B hs) z hp hu (ix3 t (0 : Fin 1) k))
      = padv b' (fun j : Fin b => B (ix2 t j)) := by
  funext k
  rw [pad3_last]
  unfold padv
  by_cases hk : k.val < b
  · rw [dif_pos hk, dif_pos hk]
    exact shapeCast_nb_n1b_apply _ _ t 0 ⟨k.val, hk⟩
  · rw [dif_neg hk, dif_neg hk]
    exact hz

/-- A weight row per atom type, [n, 1, b], padded to b'. -/
theorem read_rpad {n b b' : ℕ} (hi : Fin 3 → ℕ) (W : (⟨3, ![n, 1, b]⟩ : Shape).Idx → EReal)
    (hp : (⟨3, ![n, 1, b]⟩ : Shape).Pads ![0, 0, 0] hi ![0, 0, 0] ⟨3, ![n, 1, b']⟩) (t : Fin n) :
    (fun k : Fin b' => pad ⟨3, ![n, 1, b']⟩ ![0, 0, 0] hi ![0, 0, 0] W z hp hu (ix3 t (0 : Fin 1) k))
      = padv b' (fun k : Fin b => W (ix3 t (0 : Fin 1) k)) := by
  funext k
  rw [pad3_last]
  unfold padv
  by_cases hk : k.val < b
  · rw [dif_pos hk, dif_pos hk]
  · rw [dif_neg hk, dif_neg hk]
    exact hz

end Reads

/-! ## Each window's array at atom type t -/

theorem entry1 (t : Fin 4) : (fun (f : Fin 128) (k : Fin 512) => arr1 m c (ix3 t f k))
    = padm 128 512 (fun (f : Fin 128) (j : Fin 500) => argW1 m c (ix3 t j f)) := by
  rw [V_v2]
  exact read_wpad1 zpad h_S_ (zpad_apply _) _ _ _ _ _ t

theorem entry2 (t : Fin 4) : (fun k : Fin 512 => arr2 m c (ix3 t (0 : Fin 1) k))
    = padv 512 (fun j : Fin 500 => argB1 m c (ix2 t j)) := by
  rw [V_v4]
  exact read_bpad zpad h_S_ (zpad_apply _) _ _ _ _ t

theorem entry3 (t : Fin 4) : (fun (k : Fin 512) (j : Fin 256) => arr3 m c (ix3 t k j))
    = padm 512 256 (fun (k : Fin 500) (j : Fin 200) => argW2 m c (ix3 t j k)) := by
  rw [V_v8]
  exact read_wpad2 zpad h_S_ (zpad_apply _) _ _ _ _ _ _ _ t

theorem entry4 (t : Fin 4) : (fun k : Fin 256 => arr4 m c (ix3 t (0 : Fin 1) k))
    = padv 256 (fun j : Fin 200 => argB2 m c (ix2 t j)) := by
  rw [V_v10]
  exact read_bpad zpad h_S_ (zpad_apply _) _ _ _ _ t

theorem entry5 (t : Fin 4) : (fun (k : Fin 256) (j : Fin 128) => arr5 m c (ix3 t k j))
    = padm 256 128 (fun (k : Fin 200) (j : Fin 100) => argW3 m c (ix3 t j k)) := by
  rw [V_v14]
  exact read_wpad2 zpad h_S_ (zpad_apply _) _ _ _ _ _ _ _ t

theorem entry6 (t : Fin 4) : (fun k : Fin 128 => arr6 m c (ix3 t (0 : Fin 1) k))
    = padv 128 (fun j : Fin 100 => argB3 m c (ix2 t j)) := by
  rw [V_v16]
  exact read_bpad zpad h_S_ (zpad_apply _) _ _ _ _ t

theorem entry7 (t : Fin 4) : (fun k : Fin 128 => arr7 m c (ix3 t (0 : Fin 1) k))
    = padv 128 (fun k : Fin 100 => argW4 m c (ix3 t (0 : Fin 1) k)) := by
  rw [V_v17]
  exact read_rpad zpad h_S_ (zpad_apply _) _ _ _ t

theorem entry8 (t : Fin 4) : arr8 m c (ix3 t (0 : Fin 1) (0 : Fin 1))
    = argB4 m c (ix2 t (0 : Fin 1)) := by
  rw [V_v18]
  exact shapeCast_nb_n1b_apply _ _ t 0 0

end Cert.KernelIdeal.HostPre

end
-- ==== Proof.Blocks.lean ====
/-
  From the blocks the grid points write back to the whole array of per-atom energies.

  The grid has one point per atom type t and per tile of 4096 atoms. At a point the feature window holds the tile's
  4096 rows of x[t], the eight weight windows hold the arrays of type t whole, and the output window is the tile's 4096
  entries of the [4, 131072, 1] result. So what a point writes back is its block of ONE function of the array index: the
  per-atom network, with the staged weights of type t, of feature row (t, n). The output blocks tile the array, so after the
  run the array is that function everywhere.
-/
import proofs.«170574_j8675833938301_2_alg».proof.Proof.Body
import proofs.«170574_j8675833938301_2_alg».proof.Proof.HostPre

set_option maxRecDepth 16384

noncomputable section

namespace Cert.KernelIdeal.Blocks

open Idealize.ShloMosaic Idealize.ShloMosaic.ValueIdx Cert.KernelIdeal Cert.KernelIdeal.Gen Idealize.ShloMosaic.StableHlo
open Idealize.SL.Sem Cert.Spec Cert.KernelIdeal.HostPre
open Idealize.ShloMosaic.Pipeline (Dat)

variable (m : (ℓ : Loc nD τ sig) → Buf (Elt Ideal) ℓ) (c : Dev nD)

/-- The features as the region finds them. -/
abbrev arrX : S4x131072x128.Idx → EReal := V m c main_arg0

/-- The energy of atom n of type t from the staged arrays. -/
abbrev atomE (t : Fin 4) (n : Fin 131072) : EReal :=
  mlp (fun f : Fin 128 => arrX m c (ix3 t n f)) (fun (f : Fin 128) (k : Fin 512) => arr1 m c (ix3 t f k))
    (fun k : Fin 512 => arr2 m c (ix3 t (0 : Fin 1) k)) (fun (k : Fin 512) (j : Fin 256) => arr3 m c (ix3 t k j))
    (fun j : Fin 256 => arr4 m c (ix3 t (0 : Fin 1) j)) (fun (k : Fin 256) (j : Fin 128) => arr5 m c (ix3 t k j))
    (fun j : Fin 128 => arr6 m c (ix3 t (0 : Fin 1) j)) (fun k : Fin 128 => arr7 m c (ix3 t (0 : Fin 1) k))
    (arr8 m c (ix3 t (0 : Fin 1) (0 : Fin 1)))

/-- The whole result array: entry (t, n, 0) is the energy of atom n of type t. -/
abbrev G : S4x131072x1.Idx → EReal := fun i => atomE m c ⟨(i 0).val, (i 0).isLt⟩ ⟨(i 1).val, (i 1).isLt⟩

theorem mlp_congr {d0 d1 d2 d3 : ℕ} {x x' : Fin d0 → EReal} {w1 w1' : Fin d0 → Fin d1 → EReal} {b1 b1' : Fin d1 → EReal}
    {w2 w2' : Fin d1 → Fin d2 → EReal} {b2 b2' : Fin d2 → EReal} {w3 w3' : Fin d2 → Fin d3 → EReal} {b3 b3' : Fin d3 → EReal}
    {w4 w4' : Fin d3 → EReal} {b4 b4' : EReal} (e0 : x = x') (e1 : w1 = w1') (e2 : b1 = b1') (e3 : w2 = w2') (e4 : b2 = b2')
    (e5 : w3 = w3') (e6 : b3 = b3') (e7 : w4 = w4') (e8 : b4 = b4') :
    mlp x w1 b1 w2 b2 w3 b3 w4 b4 = mlp x' w1' b1' w2' b2' w3' b3' w4' b4' := by
  subst e0 e1 e2 e3 e4 e5 e6 e7 e8; rfl

/-- The printed index maps, decided over the grid: the feature window moves with the output window on the type and tile
    axes; every weight window follows the type axis only. -/
theorem idx_x : ∀ t : Fin cfg0.N, win0_0.index t (0 : Fin 3) = win0_9.index t (0 : Fin 3)
    ∧ win0_0.index t (1 : Fin 3) = win0_9.index t (1 : Fin 3) ∧ win0_0.index t (2 : Fin 3) = 0
    ∧ win0_9.index t (0 : Fin 3) ≤ 3 ∧ win0_9.index t (1 : Fin 3) ≤ 31 ∧ win0_9.index t (2 : Fin 3) = 0 :=
  (by decide +kernel : ∀ t : Fin grid0.N, _)

theorem idx_w : ∀ t : Fin cfg0.N,
    (win0_1.index t (0 : Fin 3) = win0_9.index t (0 : Fin 3) ∧ win0_1.index t (1 : Fin 3) = 0 ∧ win0_1.index t (2 : Fin 3) = 0)
    ∧ (win0_2.index t (0 : Fin 3) = win0_9.index t (0 : Fin 3) ∧ win0_2.index t (1 : Fin 3) = 0 ∧ win0_2.index t (2 : Fin 3) = 0)
    ∧ (win0_3.index t (0 : Fin 3) = win0_9.index t (0 : Fin 3) ∧ win0_3.index t (1 : Fin 3) = 0 ∧ win0_3.index t (2 : Fin 3) = 0)
    ∧ (win0_4.index t (0 : Fin 3) = win0_9.index t (0 : Fin 3) ∧ win0_4.index t (1 : Fin 3) = 0 ∧ win0_4.index t (2 : Fin 3) = 0)
    ∧ (win0_5.index t (0 : Fin 3) = win0_9.index t (0 : Fin 3) ∧ win0_5.index t (1 : Fin 3) = 0 ∧ win0_5.index t (2 : Fin 3) = 0)
    ∧ (win0_6.index t (0 : Fin 3) = win0_9.index t (0 : Fin 3) ∧ win0_6.index t (1 : Fin 3) = 0 ∧ win0_6.index t (2 : Fin 3) = 0)
    ∧ (win0_7.index t (0 : Fin 3) = win0_9.index t (0 : Fin 3) ∧ win0_7.index t (1 : Fin 3) = 0 ∧ win0_7.index t (2 : Fin 3) = 0)
    ∧ (win0_8.index t (0 : Fin 3) = win0_9.index t (0 : Fin 3) ∧ win0_8.index t (1 : Fin 3) = 0 ∧ win0_8.index t (2 : Fin 3) = 0) :=
  (by decide +kernel : ∀ t : Fin grid0.N, _)

/-- Every (type, tile) pair is some point's output block. -/
theorem idx_onto : ∀ (q0 : Fin 4) (q1 : Fin 32), ∃ t : Fin cfg0.N, win0_9.index t = ![q0.val, q1.val, 0] :=
  (by decide +kernel : ∀ (q0 : Fin 4) (q1 : Fin 32), ∃ t : Fin grid0.N, win0_9.index t = ![q0.val, q1.val, 0])

/-- The atom type and the atom a point's output block row r belongs to. -/
def typeOf (t : Fin cfg0.N) : Fin 4 := ⟨win0_9.index t (0 : Fin 3), by have := (idx_x t).2.2.2.1; omega⟩
def rowOf (t : Fin cfg0.N) (r : Fin 4096) : Fin 131072 :=
  ⟨win0_9.index t (1 : Fin 3) * 4096 + r.val, by have := (idx_x t).2.2.2.2.1; have := r.isLt; omega⟩

/-! Each window's block at a point, read where the output block's row says: a block's coordinate on an axis is the window's
    block index there times the block's extent plus the coordinate inside the block. -/

theorem blk0 (t : Fin cfg0.N) (r : Fin 4096) (f : Fin 128) :
    iblk m c 0 t (ix3 (0 : Fin 1) r f) = arrX m c (ix3 (typeOf t) (rowOf t r) f) := by
  show arrX m c (((cfg0.win 0).blk t).view.emb (ix3 (0 : Fin 1) r f)) = _
  obtain ⟨x0, x1, x2, x3, x4, x5⟩ := idx_x t
  refine congrArg _ (funext fun a => Fin.ext ?_)
  match a with
  | ⟨0, _⟩ => show win0_0.index t (0 : Fin 3) * 1 + 1 * (0 : Fin 1).val = win0_9.index t (0 : Fin 3); omega
  | ⟨1, _⟩ => show win0_0.index t (1 : Fin 3) * 4096 + 1 * r.val = win0_9.index t (1 : Fin 3) * 4096 + r.val; omega
  | ⟨2, _⟩ => show win0_0.index t (2 : Fin 3) * 128 + 1 * f.val = f.val; omega

theorem blk1 (t : Fin cfg0.N) (f : Fin 128) (k : Fin 512) :
    iblk m c 1 t (ix3 (0 : Fin 1) f k) = arr1 m c (ix3 (typeOf t) f k) := by
  show arr1 m c (((cfg0.win 1).blk t).view.emb (ix3 (0 : Fin 1) f k)) = _
  have hw := (idx_w t).1
  obtain ⟨w0, w1, w2⟩ := hw
  refine congrArg _ (funext fun a => Fin.ext ?_)
  match a with
  | ⟨0, _⟩ => show win0_1.index t (0 : Fin 3) * 1 + 1 * (0 : Fin 1).val = win0_9.index t (0 : Fin 3); omega
  | ⟨1, _⟩ => show win0_1.index t (1 : Fin 3) * 128 + 1 * f.val = f.val; omega
  | ⟨2, _⟩ => show win0_1.index t (2 : Fin 3) * 512 + 1 * k.val = k.val; omega

theorem blk2 (t : Fin cfg0.N) (k : Fin 512) :
    iblk m c 2 t (ix3 (0 : Fin 1) (0 : Fin 1) k) = arr2 m c (ix3 (typeOf t) (0 : Fin 1) k) := by
  show arr2 m c (((cfg0.win 2).blk t).view.emb (ix3 (0 : Fin 1) (0 : Fin 1) k)) = _
  have hw := (idx_w t).2.1
  obtain ⟨w0, w1, w2⟩ := hw
  refine congrArg _ (funext fun a => Fin.ext ?_)
  match a with
  | ⟨0, _⟩ => show win0_2.index t (0 : Fin 3) * 1 + 1 * (0 : Fin 1).val = win0_9.index t (0 : Fin 3); omega
  | ⟨1, _⟩ => show win0_2.index t (1 : Fin 3) * 1 + 1 * (0 : Fin 1).val = (0 : Fin 1).val; omega
  | ⟨2, _⟩ => show win0_2.index t (2 : Fin 3) * 512 + 1 * k.val = k.val; omega

theorem blk3 (t : Fin cfg0.N) (k : Fin 512) (j : Fin 256) :
    iblk m c 3 t (ix3 (0 : Fin 1) k j) = arr3 m c (ix3 (typeOf t) k j) := by
  show arr3 m c (((cfg0.win 3).blk t).view.emb (ix3 (0 : Fin 1) k j)) = _
  have hw := (idx_w t).2.2.1
  obtain ⟨w0, w1, w2⟩ := hw
  refine congrArg _ (funext fun a => Fin.ext ?_)
  match a with
  | ⟨0, _⟩ => show win0_3.index t (0 : Fin 3) * 1 + 1 * (0 : Fin 1).val = win0_9.index t (0 : Fin 3); omega
  | ⟨1, _⟩ => show win0_3.index t (1 : Fin 3) * 512 + 1 * k.val = k.val; omega
  | ⟨2, _⟩ => show win0_3.index t (2 : Fin 3) * 256 + 1 * j.val = j.val; omega

theorem blk4 (t : Fin cfg0.N) (k : Fin 256) :
    iblk m c 4 t (ix3 (0 : Fin 1) (0 : Fin 1) k) = arr4 m c (ix3 (typeOf t) (0 : Fin 1) k) := by
  show arr4 m c (((cfg0.win 4).blk t).view.emb (ix3 (0 : Fin 1) (0 : Fin 1) k)) = _
  have hw := (idx_w t).2.2.2.1
  obtain ⟨w0, w1, w2⟩ := hw
  refine congrArg _ (funext fun a => Fin.ext ?_)
  match a with
  | ⟨0, _⟩ => show win0_4.index t (0 : Fin 3) * 1 + 1 * (0 : Fin 1).val = win0_9.index t (0 : Fin 3); omega
  | ⟨1, _⟩ => show win0_4.index t (1 : Fin 3) * 1 + 1 * (0 : Fin 1).val = (0 : Fin 1).val; omega
  | ⟨2, _⟩ => show win0_4.index t (2 : Fin 3) * 256 + 1 * k.val = k.val; omega

theorem blk5 (t : Fin cfg0.N) (k : Fin 256) (j : Fin 128) :
    iblk m c 5 t (ix3 (0 : Fin 1) k j) = arr5 m c (ix3 (typeOf t) k j) := by
  show arr5 m c (((cfg0.win 5).blk t).view.emb (ix3 (0 : Fin 1) k j)) = _
  have hw := (idx_w t).2.2.2.2.1
  obtain ⟨w0, w1, w2⟩ := hw
  refine congrArg _ (funext fun a => Fin.ext ?_)
  match a with
  | ⟨0, _⟩ => show win0_5.index t (0 : Fin 3) * 1 + 1 * (0 : Fin 1).val = win0_9.index t (0 : Fin 3); omega
  | ⟨1, _⟩ => show win0_5.index t (1 : Fin 3) * 256 + 1 * k.val = k.val; omega
  | ⟨2, _⟩ => show win0_5.index t (2 : Fin 3) * 128 + 1 * j.val = j.val; omega

theorem blk6 (t : Fin cfg0.N) (k : Fin 128) :
    iblk m c 6 t (ix3 (0 : Fin 1) (0 : Fin 1) k) = arr6 m c (ix3 (typeOf t) (0 : Fin 1) k) := by
  show arr6 m c (((cfg0.win 6).blk t).view.emb (ix3 (0 : Fin 1) (0 : Fin 1) k)) = _
  have hw := (idx_w t).2.2.2.2.2.1
  obtain ⟨w0, w1, w2⟩ := hw
  refine congrArg _ (funext fun a => Fin.ext ?_)
  match a with
  | ⟨0, _⟩ => show win0_6.index t (0 : Fin 3) * 1 + 1 * (0 : Fin 1).val = win0_9.index t (0 : Fin 3); omega
  | ⟨1, _⟩ => show win0_6.index t (1 : Fin 3) * 1 + 1 * (0 : Fin 1).val = (0 : Fin 1).val; omega
  | ⟨2, _⟩ => show win0_6.index t (2 : Fin 3) * 128 + 1 * k.val = k.val; omega

theorem blk7 (t : Fin cfg0.N) (k : Fin 128) :
    iblk m c 7 t (ix3 (0 : Fin 1) (0 : Fin 1) k) = arr7 m c (ix3 (typeOf t) (0 : Fin 1) k) := by
  show arr7 m c (((cfg0.win 7).blk t).view.emb (ix3 (0 : Fin 1) (0 : Fin 1) k)) = _
  have hw := (idx_w t).2.2.2.2.2.2.1
  obtain ⟨w0, w1, w2⟩ := hw
  refine congrArg _ (funext fun a => Fin.ext ?_)
  match a with
  | ⟨0, _⟩ => show win0_7.index t (0 : Fin 3) * 1 + 1 * (0 : Fin 1).val = win0_9.index t (0 : Fin 3); omega
  | ⟨1, _⟩ => show win0_7.index t (1 : Fin 3) * 1 + 1 * (0 : Fin 1).val = (0 : Fin 1).val; omega
  | ⟨2, _⟩ => show win0_7.index t (2 : Fin 3) * 128 + 1 * k.val = k.val; omega

theorem blk8 (t : Fin cfg0.N)  :
    iblk m c 8 t (ix3 (0 : Fin 1) (0 : Fin 1) (0 : Fin 1)) = arr8 m c (ix3 (typeOf t) (0 : Fin 1) (0 : Fin 1)) := by
  show arr8 m c (((cfg0.win 8).blk t).view.emb (ix3 (0 : Fin 1) (0 : Fin 1) (0 : Fin 1))) = _
  have hw := (idx_w t).2.2.2.2.2.2.2
  obtain ⟨w0, w1, w2⟩ := hw
  refine congrArg _ (funext fun a => Fin.ext ?_)
  match a with
  | ⟨0, _⟩ => show win0_8.index t (0 : Fin 3) * 1 + 1 * (0 : Fin 1).val = win0_9.index t (0 : Fin 3); omega
  | ⟨1, _⟩ => show win0_8.index t (1 : Fin 3) * 1 + 1 * (0 : Fin 1).val = (0 : Fin 1).val; omega
  | ⟨2, _⟩ => show win0_8.index t (2 : Fin 3) * 1 + 1 * (0 : Fin 1).val = (0 : Fin 1).val; omega

/-- The output block's row r sits at atom (typeOf t, rowOf t r) of the result array. -/
theorem emb_out (t : Fin cfg0.N) (r : Fin 4096) :
    G m c (((cfg0.win 9).blk t).view.emb (ix3 (0 : Fin 1) r (0 : Fin 1))) = atomE m c (typeOf t) (rowOf t r) := by
  show atomE m c _ _ = _
  congr 1
  · refine Fin.ext ?_
    show win0_9.index t (0 : Fin 3) * 1 + 1 * (0 : Fin 1).val = win0_9.index t (0 : Fin 3)
    omega
  · refine Fin.ext ?_
    show win0_9.index t (1 : Fin 3) * 4096 + 1 * r.val = win0_9.index t (1 : Fin 3) * 4096 + r.val
    omega

/-- WHAT POINT t WRITES BACK is block t of the energies. -/
theorem flushed_eq (t : Fin cfg0.N) :
    (dats m 0 c).flushed 9 t = ((cfg0.win 9).blk t).view.read (Elt Ideal) (G m c) := by
  show (cfg0.win 9).cut (grid0.coords t) ((dats m 0 c).after 9 t) = _
  rw [after0_9]
  funext j
  obtain ⟨u, r, v, rfl⟩ : ∃ (u : Fin 1) (r : Fin 4096) (v : Fin 1), j = ix3 u r v := ⟨j 0, j 1, j 2, eq_ix3 j⟩
  obtain rfl : u = 0 := Subsingleton.elim _ _
  obtain rfl : v = 0 := Subsingleton.elim _ _
  show out0_9 (iblk m c 0 t) (iblk m c 1 t) (iblk m c 2 t) (iblk m c 3 t) (iblk m c 4 t) (iblk m c 5 t) (iblk m c 6 t) (iblk m c 7 t) (iblk m c 8 t) (ix3 (0 : Fin 1) r (0 : Fin 1))
    = G m c (((cfg0.win 9).blk t).view.emb (ix3 (0 : Fin 1) r (0 : Fin 1)))
  refine (Cert.KernelIdeal.Body.out_apply (iblk m c 0 t) (iblk m c 1 t) (iblk m c 2 t) (iblk m c 3 t) (iblk m c 4 t) (iblk m c 5 t) (iblk m c 6 t) (iblk m c 7 t) (iblk m c 8 t) r).trans ?_
  refine (mlp_congr (funext fun f => blk0 m c t r f) (funext fun f => funext fun k => blk1 m c t f k) (funext fun k => blk2 m c t k)
    (funext fun k => funext fun j => blk3 m c t k j) (funext fun k => blk4 m c t k) (funext fun k => funext fun j => blk5 m c t k j)
    (funext fun k => blk6 m c t k) (funext fun k => blk7 m c t k) (blk8 m c t)).trans ?_
  exact (emb_out m c t r).symm

/-- An index of the result array is in point t's output block iff each coordinate is in the block's range. -/
theorem mem_blk (t : Fin cfg0.N) (i : S4x131072x1.Idx) :
    i ∈ ((cfg0.win 9).blk t).view.set ↔ ∀ a : Fin 3, win0_9.index t a * S1x4096x1.size a ≤ (i a).val ∧ (i a).val < win0_9.index t a * S1x4096x1.size a + S1x4096x1.size a := by
  show i ∈ ((View.whole main_v19).slice (win0_9.rect t)).set ↔ _
  rw [View.set_slice_whole, Rect.mem_set_unit]
  exact Iff.rfl

/-- The output blocks tile the result array: atom (t, n) is in the block of type t and tile n / 4096. -/
theorem cover (i : S4x131072x1.Idx) : ∃ t : Fin cfg0.N, (cfg0.win 9).flush t = true ∧ i ∈ ((cfg0.win 9).blk t).view.set := by
  have hi0 : (i 0).val < 4 := (i 0).isLt
  have hi1 : (i 1).val < 131072 := (i 1).isLt
  have hi2 : (i 2).val < 1 := (i 2).isLt
  obtain ⟨t, ht⟩ := idx_onto ⟨(i 0).val, hi0⟩ ⟨(i 1).val / 4096, by omega⟩
  have q0 : win0_9.index t (0 : Fin 3) = (i 0).val := congrFun ht 0
  have q1 : win0_9.index t (1 : Fin 3) = (i 1).val / 4096 := congrFun ht 1
  have q2 : win0_9.index t (2 : Fin 3) = 0 := congrFun ht 2
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 4096 ≤ (i 1).val ∧ (i 1).val < win0_9.index t (1 : Fin 3) * 4096 + 4096; omega
  | ⟨2, _⟩ => show win0_9.index t (2 : Fin 3) * 1 ≤ (i 2).val ∧ (i 2).val < win0_9.index t (2 : Fin 3) * 1 + 1; omega

/-- THE RESULT ARRAY after the run is the energies, everywhere. -/
theorem final : (dats m 0 c).arrAt 9 cfg0.N = G m c :=
  (dats m 0 c).arrAt_eq_of_cover 9 (G m c) (fun t _ => flushed_eq m c t) (cover)

end Cert.KernelIdeal.Blocks

end
-- ==== Proof.LibScatterLanding.lean ====
/-
  Where an accumulating scatter's update lands, for any scatter dimension numbers.

  An accumulating scatter adds update element j to the operand element at "start + window coordinate" on every operand
  axis — the start read signed off the index array and not clamped — and drops the update when that position leaves the
  operand on some axis. So update j lands on operand index i exactly when, on every axis, the start plus j's window
  coordinate is i's coordinate. This turns the sum that defines the scatter at the ideal values (over the updates whose
  landing index is i) into a sum over an explicitly described set of updates, one axis equation at a time.
-/
import Idealize.ShloMosaic.PureOps.Ideal

noncomputable section

namespace Cert.LibScatterLanding

open Idealize.ShloMosaic

/-- Update j lands on i iff on every axis start + window coordinate is i's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have h1 := congrFun (Option.some.inj e) a
      have h2 := h a
      rw [← h1]
      show _ = (((d.start j idx a + (d.window j a : Int)).toNat : Nat) : Int)
      omega
    · intro e
      refine congrArg some (funext fun a => Fin.ext ?_)
      have h1 := e a
      have h2 := h a
      show (d.start j idx a + (d.window j a : Int)).toNat = (i a).val
      omega
  · rename_i h
    constructor
    · intro e; cases e
    · intro e
      exact absurd (fun a => by have h1 := e a; have h2 := (i a).isLt; constructor <;> omega) h

end Cert.LibScatterLanding

end
-- ==== Proof.LibRowScatter.lean ====
/-
  Adding rows into a matrix at integer row positions (x.at[idx].add(u) along axis 0, a segment sum), read at an entry.

  The operand is an [N, C] matrix, the updates an [M, C] matrix — one row per edge — and the positions an [M, 1] integer
  column. Update entry (e, c) goes to row idx(e), read as a signed integer and not clamped, and to column c; it is
  dropped when idx(e) is not a row of the operand. So the updates that land on (r, k) are exactly the entries (e, k) of
  the edges e with idx(e) = r, and at the ideal values the result at (r, k) is the operand's entry plus the sum of
  u(e, k) over those edges: a sum over a set of EDGES that does not depend on the column.
-/
import Idealize.ShloMosaic.PureOps.Ideal
import Idealize.ShloMosaic.PureOps.Contract
import Idealize.ShloMosaic.Lib.ValueIdx
import proofs.«170574_j8675833938301_2_alg».proof.Proof.LibScatterLanding

noncomputable section

namespace Cert.LibRowScatter

open Idealize.ShloMosaic Idealize.ShloMosaic.ValueIdx

/-- The dimension numbers of a row scatter: the updates' axis 1 is the window axis, the operand's axis 0 is
    inserted and is the one the index names, the index vector is the positions' axis 1. -/
abbrev rowsDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : Nat} (wf : ScatterDims.WF ⟨2, ![N, C]⟩ ⟨2, ![M, 1]⟩ ⟨2, ![M, C]⟩ [1] [0] [0] 1)

/-- The operand's axes that are not inserted: the column axis alone. -/
theorem mem_sKept (a : Fin 2) : a ∈ (rowsDims N M C wf).sKept ↔ a ≠ 0 := by
  simp [ScatterDims.sKept, Shape.kept]

/-- On the row axis the start of update (e, c) is the position idx(e), read signed. -/
theorem start_row (idx : IVec ⟨2, ![M, 1]⟩ w) (e : Fin M) (c : Fin C) :
    (rowsDims N M C wf).start (ix2 e c) idx 0 = (idx (ix2 e 0)).toInt := by
  unfold ScatterDims.start
  rw [dif_pos (show (0 : Fin 2) ∈ (rowsDims N M C wf).scatterDimsToOperandDims from List.mem_singleton.mpr rfl)]
  have hsi : (rowsDims N M C wf).siIdx (ix2 e c) ⟨List.idxOf (0 : Fin 2) (rowsDims N M C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis there is no start: the index does not name it. -/
theorem start_col (idx : IVec ⟨2, ![M, 1]⟩ w) (j : (⟨2, ![M, C]⟩ : Shape).Idx) :
    (rowsDims N M C wf).start j idx 1 = 0 := by
  unfold ScatterDims.start
  rw [dif_neg (show ¬ (1 : Fin 2) ∈ (rowsDims N M C wf).scatterDimsToOperandDims from
    fun h => absurd (List.mem_singleton.mp h) (show (1 : Fin 2) ≠ 0 by decide))]

/-- The row axis is inserted: an update has no window coordinate on it. -/
theorem window_row (j : (⟨2, ![M, C]⟩ : Shape).Idx) : (rowsDims N M C wf).window j 0 = 0 := by
  unfold ScatterDims.window
  rw [dif_neg (show ¬ (0 : Fin 2) ∈ (rowsDims N M C wf).sKept from fun h => (mem_sKept wf 0).1 h rfl)]

/-- The window coordinate on the column axis is the update's own column. -/
theorem window_col (e : Fin M) (c : Fin C) : (rowsDims N M C wf).window (ix2 e c) 1 = c.val := by
  unfold ScatterDims.window
  rw [dif_pos (show (1 : Fin 2) ∈ (rowsDims N M C wf).sKept from (mem_sKept wf 1).2 (show (1 : Fin 2) ≠ 0 by decide))]
  rfl

/-- Update (e, c) lands on (r, k) iff the position of e is r and c = k. -/
theorem lands_iff (idx : IVec ⟨2, ![M, 1]⟩ w) (e : Fin M) (c : Fin C) (r : Fin N) (k : Fin C) :
    (rowsDims N M C wf).resultIdx? (ix2 e c) idx = some (ix2 r k) ↔ (idx (ix2 e 0)).toInt = (r.val : Int) ∧ c = k := by
  rw [Cert.LibScatterLanding.resultIdx?_eq_some_iff]
  constructor
  · intro h
    have h0 : (rowsDims N M C wf).start (ix2 e c) idx 0 + ((rowsDims N M C wf).window (ix2 e c) 0 : Int) = (r.val : Int) := h 0
    have h1 : (rowsDims N M C wf).start (ix2 e c) idx 1 + ((rowsDims N M C wf).window (ix2 e c) 1 : Int) = (k.val : Int) := h 1
    rw [start_row, window_row] at h0
    rw [start_col, window_col] at h1
    refine ⟨by simpa using h0, Fin.ext ?_⟩
    have h2 : (c.val : Int) = (k.val : Int) := by simpa using h1
    exact_mod_cast h2
  · rintro ⟨h0, h1⟩ a
    match a with
    | ⟨0, _⟩ =>
      show (rowsDims N M C wf).start (ix2 e c) idx 0 + ((rowsDims N M C wf).window (ix2 e c) 0 : Int) = (r.val : Int)
      rw [start_row, window_row, h0]
      simp
    | ⟨1, _⟩ =>
      show (rowsDims N M C wf).start (ix2 e c) idx 1 + ((rowsDims N M C wf).window (ix2 e c) 1 : Int) = (k.val : Int)
      rw [start_col, window_col, h1]
      simp

/-- THE ROW SCATTER AT (r, k), at the ideal values: the operand's entry plus the sum of u(e, k) over the edges e whose
    position is r. -/
theorem scatterAdd_rows_apply (x : FVec Ideal ⟨2, ![N, C]⟩ .f32) (idx : IVec ⟨2, ![M, 1]⟩ w)
    (u : FVec Ideal ⟨2, ![M, C]⟩ .f32) (r : Fin N) (k : Fin C) :
    Host.scatterAdd (rowsDims N M C wf) x idx u (ix2 r k)
      = x (ix2 r k) + ∑ e ∈ Finset.univ.filter (fun e : Fin M => (idx (ix2 e 0)).toInt = (r.val : Int)), u (ix2 e k) := by
  show Ideal.hostScatterAdd (rowsDims N M C wf) x idx u (ix2 r k) = _
  unfold Ideal.hostScatterAdd
  congr 1
  refine Finset.sum_nbij' (fun j => (j 0 : Fin M)) (fun e => ix2 e k) ?_ ?_ ?_ ?_ ?_
  · intro j hj
    obtain ⟨e, c, rfl⟩ : ∃ (e : Fin M) (c : Fin C), j = ix2 e c := ⟨j 0, j 1, eq_ix2 j⟩
    exact Finset.mem_filter.2 ⟨Finset.mem_univ _, ((lands_iff wf idx e c r k).1 (Finset.mem_filter.1 hj).2).1⟩
  · intro e he
    exact Finset.mem_filter.2 ⟨Finset.mem_univ _, (lands_iff wf idx e k r k).2 ⟨(Finset.mem_filter.1 he).2, rfl⟩⟩
  · intro j hj
    obtain ⟨e, c, rfl⟩ : ∃ (e : Fin M) (c : Fin C), j = ix2 e c := ⟨j 0, j 1, eq_ix2 j⟩
    have h1 := ((lands_iff wf idx e c r k).1 (Finset.mem_filter.1 hj).2).2
    rw [h1]
    rfl
  · intro e _; rfl
  · intro j hj
    obtain ⟨e, c, rfl⟩ : ∃ (e : Fin M) (c : Fin C), j = ix2 e c := ⟨j 0, j 1, eq_ix2 j⟩
    have h1 := ((lands_iff wf idx e c r k).1 (Finset.mem_filter.1 hj).2).2
    rw [h1]
    rfl

end Cert.LibRowScatter

end
-- ==== Proof.Tails.lean ====
/-
  The last steps of the two programs: per-atom energies A[t, n] are added into the molecule rows of e at integer
  positions ind[t, n].

  One program flattens the energies and the positions to vectors of length 524288, scatters the energies into a zero
  vector of length 16384 (an energy whose position is not in [0, 16384) is dropped), turns the result into a column and
  adds it to e. The other first replaces a negative position p by p + 16384, flattens the energies to a column, and
  scatters that column's rows straight into e. When no position is negative the replacement does nothing, and both
  results at row r are  e(r) + Σ { A(q) : q a flat position with ind(q) = r }  — the same extended real, since the
  zero vector contributes 0.
-/
import proofs.«170574_j8675833938301_2_alg».proof.Proof.Gen.KernelIdeal
import proofs.«170574_j8675833938301_2_alg».proof.Proof.Gen.ReferenceIdeal
import proofs.«170574_j8675833938301_2_alg».proof.Proof.LibRowScatter
import proofs.«170574_j8675833938301_2_alg».proof.Proof.LibKeepdims
import Idealize.ShloMosaic.Lib.IdealHost
import Idealize.ShloMosaic.Lib.Pipeline.Value
import Idealize.ShloMosaic.Lib.Affine

noncomputable section

open scoped BigOperators

namespace Cert.Tails

open Idealize.ShloMosaic Idealize.ShloMosaic.ValueIdx

/-! ## Adding a vector's entries into a vector at integer positions

The operand is a vector [N], the updates a vector [M], the positions an [M, 1] integer column. Update e goes to entry
idx(e), read signed and not clamped, and is dropped when that is not an entry of the operand. -/

section VecScatter

/-- The dimension numbers of that scatter: no window axis, the operand's one axis inserted and named by the index, the
    index vector on the positions' axis 1. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- The operand's one axis is inserted: no axis is kept. -/
theorem vec_not_mem_sKept : ¬ (0 : Fin 1) ∈ (vecDims N M wf).sKept := by
  simp [ScatterDims.sKept, Shape.kept]

/-- The start of update e is the position idx(e), read signed. -/
theorem vec_start (idx : IVec ⟨2, ![M, 1]⟩ w) (e : Fin M) :
    (vecDims N M wf).start (ix1 e) idx 0 = (idx (ix2 e 0)).toInt := by
  unfold ScatterDims.start
  rw [dif_pos (show (0 : Fin 1) ∈ (vecDims N M wf).scatterDimsToOperandDims from List.mem_singleton.mpr rfl)]
  have hsi : (vecDims N M wf).siIdx (ix1 e) ⟨List.idxOf (0 : Fin 1) (vecDims N M wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- An update has no window coordinate. -/
theorem vec_window (j : (⟨1, ![M]⟩ : Shape).Idx) : (vecDims N M wf).window j 0 = 0 := by
  unfold ScatterDims.window
  rw [dif_neg (vec_not_mem_sKept wf)]

/-- Update e lands on entry r iff its position is r. -/
theorem vec_lands_iff (idx : IVec ⟨2, ![M, 1]⟩ w) (e : Fin M) (r : Fin N) :
    (vecDims N M wf).resultIdx? (ix1 e) idx = some (ix1 r) ↔ (idx (ix2 e 0)).toInt = (r.val : Int) := by
  rw [Cert.LibScatterLanding.resultIdx?_eq_some_iff]
  constructor
  · intro h
    have h0 : (vecDims N M wf).start (ix1 e) idx 0 + ((vecDims N M wf).window (ix1 e) 0 : Int) = (r.val : Int) := h 0
    rw [vec_start, vec_window] at h0
    simpa using h0
  · intro h0 a
    match a with
    | ⟨0, _⟩ =>
      show (vecDims N M wf).start (ix1 e) idx 0 + ((vecDims N M wf).window (ix1 e) 0 : Int) = (r.val : Int)
      rw [vec_start, vec_window, h0]
      simp

/-- THE VECTOR SCATTER AT r, at the ideal values: the operand's entry plus the sum of the updates whose position is r. -/
theorem scatterAdd_vec_apply (x : FVec Ideal ⟨1, ![N]⟩ .f32) (idx : IVec ⟨2, ![M, 1]⟩ w)
    (u : FVec Ideal ⟨1, ![M]⟩ .f32) (r : Fin N) :
    Host.scatterAdd (vecDims N M wf) x idx u (ix1 r)
      = x (ix1 r) + ∑ e ∈ Finset.univ.filter (fun e : Fin M => (idx (ix2 e 0)).toInt = (r.val : Int)), u (ix1 e) := by
  show Ideal.hostScatterAdd (vecDims N M wf) x idx u (ix1 r) = _
  unfold Ideal.hostScatterAdd
  congr 1
  refine Finset.sum_nbij' (fun j => (j 0 : Fin M)) (fun e => ix1 e) ?_ ?_ ?_ ?_ ?_
  · intro j hj
    obtain ⟨e, rfl⟩ : ∃ (e : Fin M), j = ix1 e := ⟨j 0, eq_ix1 j⟩
    exact Finset.mem_filter.2 ⟨Finset.mem_univ _, (vec_lands_iff wf idx e r).1 (Finset.mem_filter.1 hj).2⟩
  · intro e he
    exact Finset.mem_filter.2 ⟨Finset.mem_univ _, (vec_lands_iff wf idx e r).2 (Finset.mem_filter.1 he).2⟩
  · intro j _
    exact (eq_ix1 j).symm
  · intro e _; rfl
  · intro j _
    exact congrArg u (eq_ix1 j)

end VecScatter

/-! ## Layout steps at an index -/

section Layout
variable {α : Type}

/-- A vector [M] broadcast to the column [M, 1] reads, at (q, u), the vector at q. -/
theorem broadcastInDim_col_apply {M : Nat} (x : (⟨1, ![M]⟩ : Shape).Idx → α)
    (h : (⟨1, ![M]⟩ : Shape).BroadcastsInDim ⟨2, ![M, 1]⟩ ![0]) (q : Fin M) (u : Fin 1) :
    broadcastInDim ⟨2, ![M, 1]⟩ ![0] h x (ix2 q u) = x (ix1 q) := by
  refine broadcastInDim_apply ![0] h x (ix2 q u) (ix1 q) fun a => ?_
  match a with
  | ⟨0, _⟩ =>
    show q.val = if M = 1 then 0 else q.val
    split
    · have := q.isLt; omega
    · rfl

/-- An array cast to the column [M, 1] and the same array cast to the vector [M] hold the same element at (q, u) and
    at q: both sit at row-major position q. -/
theorem shapeCast_col_eq_vec {s : Shape} {M : Nat} (x : s.Idx → α) (h2 : s.ShapeCasts ⟨2, ![M, 1]⟩)
    (h1 : s.ShapeCasts ⟨1, ![M]⟩) (q : Fin M) (u : Fin 1) :
    shapeCast ⟨2, ![M, 1]⟩ x h2 (ix2 q u) = shapeCast ⟨1, ![M]⟩ x h1 (ix1 q) := by
  refine shapeCast_apply x h2 (ix2 q u) (Shape.reshapeEquiv h1 (ix1 q)) ?_
  have hu : u.val = 0 := by omega
  rw [Shape.rowMajor_reshapeEquiv, Shape.rowMajor_val_one, Shape.rowMajor_val_two]
  show q.val = q.val * 1 + u.val
  rw [hu, Nat.mul_one, Nat.add_zero]

end Layout

/-! ## The two tails -/

section Kernel
open Cert.KernelIdeal Cert.KernelIdeal.Facts₀

/-- The positions, flattened to a vector of length 524288 in row-major order. -/
def flatInd (ind : IVec S4x131072 32) : IVec S524288 32 := shapeCast S524288 ind shapeCasts_S4x131072_S524288

/-- The energies, flattened to a vector of length 524288 in row-major order. -/
def flatA (A : FVec Ideal S4x131072x1 .f32) : FVec Ideal S524288 .f32 :=
  shapeCast S524288 A shapeCasts_S4x131072x1_S524288

/-- The first program's last steps: flatten, scatter into a zero vector, make a column, add to e. -/
def kernelTail (e : FVec Ideal S16384x1 .f32) (ind : IVec S4x131072 32) (A : FVec Ideal S4x131072x1 .f32) :
    FVec Ideal S16384x1 .f32 :=
  let main_v20 : FVec Ideal S524288 .f32 := shapeCast S524288 A shapeCasts_S4x131072x1_S524288
  let main_v21 : IVec S524288 32 := shapeCast S524288 ind shapeCasts_S4x131072_S524288
  let main_cst : FVec Ideal S_ .f32 := constant (F := Ideal) S_ .f32 0x00000000#32
  let main_v22 : FVec Ideal S16384 .f32 := broadcastInDim S16384 ![] bcast_S_S16384 main_cst
  let main_v23 : IVec S524288x1 32 := broadcastInDim S524288x1 ![0] bcast_S524288_S524288x1_0 main_v21
  let main_v24 : FVec Ideal S16384 .f32 :=
    (fun x i u => Host.scatterAdd (F := Ideal) scatter_S16384_S524288x1_S524288_n_0_0_1 x i u) main_v22 main_v23 main_v20
  let main_v25 : FVec Ideal S16384x1 .f32 := shapeCast S16384x1 main_v24 shapeCasts_S16384_S16384x1
  addf e main_v25

/-- The first program's result at row r: e(r) plus the energies whose position is r. -/
theorem kernelTail_apply (e : FVec Ideal S16384x1 .f32) (ind : IVec S4x131072 32) (A : FVec Ideal S4x131072x1 .f32)
    (r : Fin 16384) :
    kernelTail e ind A (ix2 r 0)
      = e (ix2 r 0) + ∑ q ∈ Finset.univ.filter (fun q : Fin 524288 => (flatInd ind (ix1 q)).toInt = (r.val : Int)),
          flatA A (ix1 q) := by
  unfold kernelTail
  dsimp only
  rw [addf_apply, Cert.LibKeepdims.shapeCast_a_a1_apply]
  refine congrArg (e (ix2 r 0) + ·) ?_
  refine (scatterAdd_vec_apply scatter_S16384_S524288x1_S524288_n_0_0_1_wf _ _ _ r).trans ?_
  rw [broadcastInDim_scalar_apply, constant_apply, Ideal.ofBits_zero_f32, zero_add]
  refine Finset.sum_congr (Finset.filter_congr fun q _ => ?_) fun q _ => rfl
  rw [broadcastInDim_col_apply]
  rfl

end Kernel

section Reference
open Cert.ReferenceIdeal Cert.ReferenceIdeal.Facts₀

/-- The second program's last steps: flatten, wrap a negative position by 16384, scatter the energies' rows into e. -/
def refTail (e : FVec Ideal S16384x1 .f32) (ind : IVec S4x131072 32) (A : FVec Ideal S4x131072x1 .f32) :
    FVec Ideal S16384x1 .f32 :=
  let main_v19 : IVec S524288 32 := shapeCast S524288 ind shapeCasts_S4x131072_S524288
  let main_v20 : FVec Ideal S524288x1 .f32 := shapeCast S524288x1 A shapeCasts_S4x131072x1_S524288x1
  let main_c : IVec S_ 32 := constantI S_ 32 0#32
  let main_v21 : IVec S524288 32 := broadcastInDim S524288 ![] bcast_S_S524288 main_c
  let main_v22 : IVec S524288 1 := cmpi .slt main_v19 main_v21
  let main_c_0 : IVec S_ 32 := constantI S_ 32 16384#32
  let main_v23 : IVec S524288 32 := broadcastInDim S524288 ![] bcast_S_S524288 main_c_0
  let main_v24 : IVec S524288 32 := addi main_v19 main_v23
  let main_v25 : IVec S524288 32 := select main_v22 main_v24 main_v19
  let main_v26 : IVec S524288x1 32 := broadcastInDim S524288x1 ![0] bcast_S524288_S524288x1_0 main_v25
  let main_v27 : FVec Ideal S16384x1 .f32 :=
    (fun x i u => Host.scatterAdd (F := Ideal) scatter_S16384x1_S524288x1_S524288x1_1_0_0_1 x i u) e main_v26 main_v20
  main_v27

/-- The second program's result at row r, when no position is negative: e(r) plus the energies whose position is r. -/
theorem refTail_apply (e : FVec Ideal S16384x1 .f32) (ind : IVec S4x131072 32) (A : FVec Ideal S4x131072x1 .f32)
    (hpos : ∀ i, 0 ≤ (ind i).toInt) (r : Fin 16384) :
    refTail e ind A (ix2 r 0)
      = e (ix2 r 0) + ∑ q ∈ Finset.univ.filter (fun q : Fin 524288 => (flatInd ind (ix1 q)).toInt = (r.val : Int)),
          flatA A (ix1 q) := by
  unfold refTail
  dsimp only
  refine (Cert.LibRowScatter.scatterAdd_rows_apply scatter_S16384x1_S524288x1_S524288x1_1_0_0_1_wf _ _ _ r 0).trans ?_
  refine congrArg (e (ix2 r 0) + ·) ?_
  refine Finset.sum_congr (Finset.filter_congr fun q _ => ?_) fun q _ => ?_
  · rw [broadcastInDim_col_apply, select_apply]
    have hq : 0 ≤ (flatInd ind (ix1 q)).toInt := hpos _
    have hc : ¬ IntOp.cmpi .slt (flatInd ind (ix1 q)) 0#32 = 1#1 := by
      rw [IntOp.cmpi_slt]
      have h0 : (0#32 : BitVec 32).toInt = 0 := by decide
      rw [h0]
      omega
    have hz : cmpi .slt (shapeCast S524288 ind shapeCasts_S4x131072_S524288)
        (broadcastInDim S524288 ![] bcast_S_S524288 (constantI S_ 32 0#32)) (ix1 q) = 0#1 := eq_zero_of_ne_one hc
    rw [hz, select_zero]
    rfl
  · exact shapeCast_col_eq_vec A _ _ q 0

end Reference

/-- When no position is negative the two tails are one function. -/
theorem tails_eq (e : FVec Ideal Cert.KernelIdeal.S16384x1 .f32) (ind : IVec Cert.KernelIdeal.S4x131072 32)
    (A : FVec Ideal Cert.KernelIdeal.S4x131072x1 .f32) (hpos : ∀ i, 0 ≤ (ind i).toInt) :
    refTail e ind A = kernelTail e ind A := by
  funext j
  obtain ⟨r, u, rfl⟩ : ∃ (r : Fin 16384) (u : Fin 1), j = ix2 r u := ⟨j 0, j 1, eq_ix2 j⟩
  obtain rfl : u = 0 := Subsingleton.elim _ _
  rw [refTail_apply e ind A hpos r, kernelTail_apply e ind A r]

end Cert.Tails

end
-- ==== Proof.RefAtom.lean ====
/-
  The reference's per-atom energy, read at one atom, is the three-layer network of Spec applied to that atom's feature row.

  Each dense stage of the reference is a batched contraction over the feature axis, plus a bias row broadcast over the atoms,
  followed by a maximum with a broadcast zero. Read at the coordinates (t, n, j) — atom type t, atom n, output column j — the
  contraction is the sum over k of the previous stage at (t, n, k) times the weight at (t, j, k), the bias is read at (t, j),
  and the broadcast zero is the extended real 0. That is column j of Spec's layer on the row of atom (t, n). Three such
  stages and the closing contraction against the single weight row (t, 0, ·) plus the bias at (t, 0) give Spec's mlp.
-/
import proofs.«170574_j8675833938301_2_alg».proof.Proof.Gen.ReferenceIdeal.Read
import proofs.«170574_j8675833938301_2_alg».proof.Proof.Spec
import Idealize.ShloMosaic.Lib.ValueIdx
import Idealize.ShloMosaic.PureOps.Ideal.Laws

noncomputable section

namespace Cert.RefAtom

open Cert.ReferenceIdeal Cert.ReferenceIdeal.Read Idealize.ShloMosaic Idealize.ShloMosaic.ValueIdx

/-! ## Where each stage reads its operands, at explicit coordinates

  At the output coordinates (t, n, j) a contraction reads its left operand at (t, n, k) and its right operand at (t, j, k);
  the bias, broadcast twice, is read at (t, j). -/

theorem lidx0 (t : Fin 4) (n : Fin 131072) (j : Fin 500) (k : Fin 128) :
    lidx_main_v0 (ix3 t n j) k = ix3 t n k := by
  funext a; match a with | ⟨0, _⟩ => rfl | ⟨1, _⟩ => rfl | ⟨2, _⟩ => rfl

theorem ridx0 (t : Fin 4) (n : Fin 131072) (j : Fin 500) (k : Fin 128) :
    ridx_main_v0 (ix3 t n j) k = ix3 t j k := by
  funext a; match a with | ⟨0, _⟩ => rfl | ⟨1, _⟩ => rfl | ⟨2, _⟩ => rfl

theorem bidx0 (t : Fin 4) (n : Fin 131072) (j : Fin 500) :
    idx_main_v1 (idx_main_v2 (ix3 t n j)) = ix2 t j := by
  funext a; match a with | ⟨0, _⟩ => rfl | ⟨1, _⟩ => rfl

theorem lidx5 (t : Fin 4) (n : Fin 131072) (j : Fin 200) (k : Fin 500) :
    lidx_main_v5 (ix3 t n j) k = ix3 t n k := by
  funext a; match a with | ⟨0, _⟩ => rfl | ⟨1, _⟩ => rfl | ⟨2, _⟩ => rfl

theorem ridx5 (t : Fin 4) (n : Fin 131072) (j : Fin 200) (k : Fin 500) :
    ridx_main_v5 (ix3 t n j) k = ix3 t j k := by
  funext a; match a with | ⟨0, _⟩ => rfl | ⟨1, _⟩ => rfl | ⟨2, _⟩ => rfl

theorem bidx5 (t : Fin 4) (n : Fin 131072) (j : Fin 200) :
    idx_main_v6 (idx_main_v7 (ix3 t n j)) = ix2 t j := by
  funext a; match a with | ⟨0, _⟩ => rfl | ⟨1, _⟩ => rfl

theorem lidx10 (t : Fin 4) (n : Fin 131072) (j : Fin 100) (k : Fin 200) :
    lidx_main_v10 (ix3 t n j) k = ix3 t n k := by
  funext a; match a with | ⟨0, _⟩ => rfl | ⟨1, _⟩ => rfl | ⟨2, _⟩ => rfl

theorem ridx10 (t : Fin 4) (n : Fin 131072) (j : Fin 100) (k : Fin 200) :
    ridx_main_v10 (ix3 t n j) k = ix3 t j k := by
  funext a; match a with | ⟨0, _⟩ => rfl | ⟨1, _⟩ => rfl | ⟨2, _⟩ => rfl

theorem bidx10 (t : Fin 4) (n : Fin 131072) (j : Fin 100) :
    idx_main_v11 (idx_main_v12 (ix3 t n j)) = ix2 t j := by
  funext a; match a with | ⟨0, _⟩ => rfl | ⟨1, _⟩ => rfl

theorem lidx15 (t : Fin 4) (n : Fin 131072) (k : Fin 100) :
    lidx_main_v15 (ix3 t n (0 : Fin 1)) k = ix3 t n k := by
  funext a; match a with | ⟨0, _⟩ => rfl | ⟨1, _⟩ => rfl | ⟨2, _⟩ => rfl

theorem ridx15 (t : Fin 4) (n : Fin 131072) (k : Fin 100) :
    ridx_main_v15 (ix3 t n (0 : Fin 1)) k = ix3 t (0 : Fin 1) k := by
  funext a; match a with | ⟨0, _⟩ => rfl | ⟨1, _⟩ => rfl | ⟨2, _⟩ => rfl

theorem bidx15 (t : Fin 4) (n : Fin 131072) :
    idx_main_v16 (idx_main_v17 (ix3 t n (0 : Fin 1))) = ix2 t (0 : Fin 1) := by
  funext a; match a with | ⟨0, _⟩ => rfl | ⟨1, _⟩ => rfl

/-! ## The stages are the layers -/

/-- The first stage at (t, n, j) is column j of the first layer on the feature row of atom (t, n). -/
theorem layer1 (x0 : (⟨S4x131072x128, .f32⟩ : BufTy).Contents (Elt Ideal)) (x3 : (⟨S4x500x128, .f32⟩ : BufTy).Contents (Elt Ideal)) (x4 : (⟨S4x500, .f32⟩ : BufTy).Contents (Elt Ideal)) (t : Fin 4) (n : Fin 131072) (j : Fin 500) :
    val_main_v4 (F := Ideal) x0 x3 x4 (ix3 t n j) = Cert.Spec.layer (fun f : Fin 128 => x0 (ix3 t n f)) (fun (f : Fin 128) (j : Fin 500) => x3 (ix3 t j f)) (fun j : Fin 500 => x4 (ix2 t j)) j := by
  rw [val_main_v4_apply, val_main_v3_apply, val_main_v0_apply, val_main_v2_apply, val_main_v1_apply,
    val_main_call0_v0_apply, val_main_call0_cst_apply, Ideal.maximumf_def, Ideal.addf_def, Ideal.ofBits_def,
    Ideal.ofBits_zero_f32, bidx0]
  unfold Cert.Spec.layer
  refine congrArg (fun s => max (s + x4 (ix2 t j)) 0) ?_
  exact Finset.sum_congr rfl fun k _ => by rw [lidx0, ridx0]

/-- The second stage at (t, n, j) is column j of the second layer on the first layer's row. -/
theorem layer2 (x0 : (⟨S4x131072x128, .f32⟩ : BufTy).Contents (Elt Ideal)) (x3 : (⟨S4x500x128, .f32⟩ : BufTy).Contents (Elt Ideal)) (x4 : (⟨S4x500, .f32⟩ : BufTy).Contents (Elt Ideal)) (x5 : (⟨S4x200x500, .f32⟩ : BufTy).Contents (Elt Ideal)) (x6 : (⟨S4x200, .f32⟩ : BufTy).Contents (Elt Ideal)) (t : Fin 4) (n : Fin 131072) (j : Fin 200) :
    val_main_v9 (F := Ideal) x0 x3 x4 x5 x6 (ix3 t n j) = Cert.Spec.layer (Cert.Spec.layer (fun f : Fin 128 => x0 (ix3 t n f)) (fun (f : Fin 128) (j : Fin 500) => x3 (ix3 t j f)) (fun j : Fin 500 => x4 (ix2 t j))) (fun (k : Fin 500) (j : Fin 200) => x5 (ix3 t j k)) (fun j : Fin 200 => x6 (ix2 t j)) j := by
  rw [val_main_v9_apply, val_main_v8_apply, val_main_v5_apply, val_main_v7_apply, val_main_v6_apply,
    val_main_call1_v0_apply, val_main_call1_cst_apply, Ideal.maximumf_def, Ideal.addf_def, Ideal.ofBits_def,
    Ideal.ofBits_zero_f32, bidx5]
  refine congrArg (fun s => max (s + x6 (ix2 t j)) 0) ?_
  exact Finset.sum_congr rfl fun k _ => by rw [lidx5, ridx5, layer1]

/-- The third stage at (t, n, j) is column j of the third layer on the second layer's row. -/
theorem layer3 (x0 : (⟨S4x131072x128, .f32⟩ : BufTy).Contents (Elt Ideal)) (x3 : (⟨S4x500x128, .f32⟩ : BufTy).Contents (Elt Ideal)) (x4 : (⟨S4x500, .f32⟩ : BufTy).Contents (Elt Ideal)) (x5 : (⟨S4x200x500, .f32⟩ : BufTy).Contents (Elt Ideal)) (x6 : (⟨S4x200, .f32⟩ : BufTy).Contents (Elt Ideal)) (x7 : (⟨S4x100x200, .f32⟩ : BufTy).Contents (Elt Ideal)) (x8 : (⟨S4x100, .f32⟩ : BufTy).Contents (Elt Ideal)) (t : Fin 4) (n : Fin 131072) (j : Fin 100) :
    val_main_v14 (F := Ideal) x0 x3 x4 x5 x6 x7 x8 (ix3 t n j) = Cert.Spec.layer (Cert.Spec.layer (Cert.Spec.layer (fun f : Fin 128 => x0 (ix3 t n f)) (fun (f : Fin 128) (j : Fin 500) => x3 (ix3 t j f)) (fun j : Fin 500 => x4 (ix2 t j))) (fun (k : Fin 500) (j : Fin 200) => x5 (ix3 t j k)) (fun j : Fin 200 => x6 (ix2 t j))) (fun (k : Fin 200) (j : Fin 100) => x7 (ix3 t j k)) (fun j : Fin 100 => x8 (ix2 t j)) j := by
  rw [val_main_v14_apply, val_main_v13_apply, val_main_v10_apply, val_main_v12_apply, val_main_v11_apply,
    val_main_call2_v0_apply, val_main_call2_cst_apply, Ideal.maximumf_def, Ideal.addf_def, Ideal.ofBits_def,
    Ideal.ofBits_zero_f32, bidx10]
  refine congrArg (fun s => max (s + x8 (ix2 t j)) 0) ?_
  exact Finset.sum_congr rfl fun k _ => by rw [lidx10, ridx10, layer2]

/-- The reference's energy of atom (t, n) is the network of Spec on that atom's feature row, with the weights and biases of
    atom type t. -/
theorem ref_atom (x0 : (⟨S4x131072x128, .f32⟩ : BufTy).Contents (Elt Ideal)) (x3 : (⟨S4x500x128, .f32⟩ : BufTy).Contents (Elt Ideal)) (x4 : (⟨S4x500, .f32⟩ : BufTy).Contents (Elt Ideal)) (x5 : (⟨S4x200x500, .f32⟩ : BufTy).Contents (Elt Ideal)) (x6 : (⟨S4x200, .f32⟩ : BufTy).Contents (Elt Ideal)) (x7 : (⟨S4x100x200, .f32⟩ : BufTy).Contents (Elt Ideal)) (x8 : (⟨S4x100, .f32⟩ : BufTy).Contents (Elt Ideal)) (x9 : (⟨S4x1x100, .f32⟩ : BufTy).Contents (Elt Ideal)) (x10 : (⟨S4x1, .f32⟩ : BufTy).Contents (Elt Ideal)) (t : Fin 4) (n : Fin 131072) :
    Cert.ReferenceIdeal.Read.val_main_v18 (F := Ideal) x0 x3 x4 x5 x6 x7 x8 x9 x10 (ix3 t n (0 : Fin 1))
      = Cert.Spec.mlp (fun f : Fin 128 => x0 (ix3 t n f)) (fun (f : Fin 128) (j : Fin 500) => x3 (ix3 t j f)) (fun j : Fin 500 => x4 (ix2 t j))
          (fun (k : Fin 500) (j : Fin 200) => x5 (ix3 t j k)) (fun j : Fin 200 => x6 (ix2 t j))
          (fun (k : Fin 200) (j : Fin 100) => x7 (ix3 t j k)) (fun j : Fin 100 => x8 (ix2 t j))
          (fun k : Fin 100 => x9 (ix3 t (0 : Fin 1) k)) (x10 (ix2 t (0 : Fin 1))) := by
  rw [val_main_v18_apply, val_main_v15_apply, val_main_v17_apply, val_main_v16_apply, Ideal.addf_def, bidx15]
  unfold Cert.Spec.mlp Cert.Spec.head
  refine congrArg (fun s => s + x10 (ix2 t (0 : Fin 1))) ?_
  exact Finset.sum_congr rfl fun k _ => by rw [lidx15, ridx15, layer3]

end Cert.RefAtom

end
-- ==== Proof.KernelRun.lean ====
/-
  The kernel's run, with its result named.

  After the region the host flattens the energies and the positions, adds each energy into the molecule row its position
  names, and adds the sums to e. The region leaves the energies of the staged (padded) network; by the padding law these
  are the energies of the unpadded network, which is what the reference computes before its own scatter. So the kernel's
  result is the kernel-side scatter applied to the reference's energies.
-/
import proofs.«170574_j8675833938301_2_alg».proof.Proof.Blocks
import proofs.«170574_j8675833938301_2_alg».proof.Proof.Tails
import proofs.«170574_j8675833938301_2_alg».proof.Proof.RefAtom

set_option maxRecDepth 16384

noncomputable section

namespace Cert.KernelIdeal.KernelRun

open Idealize.ShloMosaic Idealize.ShloMosaic.ValueIdx Cert.KernelIdeal Cert.KernelIdeal.Gen Idealize.ShloMosaic.StableHlo
open Idealize.SL.Sem Cert.Spec Cert.KernelIdeal.HostPre Cert.KernelIdeal.Blocks

variable (m : (ℓ : Loc nD τ sig) → Buf (Elt Ideal) ℓ) (ρ : Dev nD → PrngReg)

/-- The arguments as plain arrays. -/
abbrev argX (c : Dev nD) : S4x131072x128.Idx → EReal := m ((c.tc : Thread nD τ).loc main_arg0)
abbrev argInd (c : Dev nD) : S4x131072.Idx → BitVec 32 := m ((c.tc : Thread nD τ).loc main_arg1)
abbrev argE (c : Dev nD) : S16384x1.Idx → EReal := m ((c.tc : Thread nD τ).loc main_arg2)

/-- The reference's energies of the kernel's own arguments. -/
abbrev refE (c : Dev nD) : S4x131072x1.Idx → EReal :=
  Cert.ReferenceIdeal.Read.val_main_v18 (F := Ideal) (argX m c) (argW1 m c) (argB1 m c) (argW2 m c) (argB2 m c)
    (argW3 m c) (argB3 m c) (argW4 m c) (argB4 m c)

/-- The energy of an atom from the staged arrays is the padded network of the arguments. -/
theorem atomE_pad (c : Dev nD) (t : Fin 4) (n : Fin 131072) :
    atomE m c t n = mlp (fun f : Fin 128 => argX m c (ix3 t n f))
      (padm 128 512 (fun (f : Fin 128) (j : Fin 500) => argW1 m c (ix3 t j f))) (padv 512 (fun j : Fin 500 => argB1 m c (ix2 t j)))
      (padm 512 256 (fun (k : Fin 500) (j : Fin 200) => argW2 m c (ix3 t j k))) (padv 256 (fun j : Fin 200 => argB2 m c (ix2 t j)))
      (padm 256 128 (fun (k : Fin 200) (j : Fin 100) => argW3 m c (ix3 t j k))) (padv 128 (fun j : Fin 100 => argB3 m c (ix2 t j)))
      (padv 128 (fun k : Fin 100 => argW4 m c (ix3 t (0 : Fin 1) k))) (argB4 m c (ix2 t (0 : Fin 1))) := by
  have hX : (fun f : Fin 128 => arrX m c (ix3 t n f)) = fun f : Fin 128 => argX m c (ix3 t n f) := by
    funext f
    exact congrFun (V_main_arg0 m c) (ix3 t n f)
  exact Cert.KernelIdeal.Blocks.mlp_congr hX (entry1 m c t) (entry2 m c t) (entry3 m c t) (entry4 m c t) (entry5 m c t)
    (entry6 m c t) (entry7 m c t) (entry8 m c t)

/-- THE STAGED NETWORK IS THE REFERENCE'S: the padded hidden units contribute nothing. -/
theorem G_eq (c : Dev nD) : G m c = refE m c := by
  funext i
  obtain ⟨t, n, v, rfl⟩ : ∃ (t : Fin 4) (n : Fin 131072) (v : Fin 1), i = ix3 t n v := ⟨i 0, i 1, i 2, eq_ix3 i⟩
  obtain rfl : v = 0 := Subsingleton.elim _ _
  show atomE m c t n = _
  rw [atomE_pad m c t n]
  refine (mlp_pad (d1' := 512) (d2' := 256) (d3' := 128) (by norm_num) (by norm_num) (by norm_num)
    (fun f : Fin 128 => argX m c (ix3 t n f)) (fun (f : Fin 128) (j : Fin 500) => argW1 m c (ix3 t j f)) (fun j : Fin 500 => argB1 m c (ix2 t j))
    (fun (k : Fin 500) (j : Fin 200) => argW2 m c (ix3 t j k)) (fun j : Fin 200 => argB2 m c (ix2 t j))
    (fun (k : Fin 200) (j : Fin 100) => argW3 m c (ix3 t j k)) (fun j : Fin 100 => argB3 m c (ix2 t j))
    (fun k : Fin 100 => argW4 m c (ix3 t (0 : Fin 1) k)) (argB4 m c (ix2 t (0 : Fin 1)))).trans ?_
  exact (Cert.RefAtom.ref_atom (argX m c) (argW1 m c) (argB1 m c) (argW2 m c) (argB2 m c) (argW3 m c) (argB3 m c) (argW4 m c) (argB4 m c) t n).symm

/-- What the lines after the region leave in the result buffer: the scatter of the region's energies. -/
theorem tail_eq (c : Dev nD) :
    Pipeline.afterTail₀ cfgs (dats m) 0 (V0 m) [hostOps1] c main_v26
      = Cert.Tails.kernelTail (argE m c) (argInd m c) (refE m c) := by
  unfold Pipeline.afterTail₀
  show StableHlo.after hostOps1 _ (Proc.devRef .tc main_v26) = _
  after_results
  have hA : Pipeline.withArrays (cfgs 0).spec c (V0 m c) (fun w => (dats m 0 c).arrAt w (cfgs 0).N) (Proc.tc.devRef main_v19) = refE m c := by
    rw [Pipeline.withArrays_arr spec0 launch0.win.arr_inj c _ _ 9]
    exact (final m c).trans (G_eq m c)
  have hE : Pipeline.withArrays (cfgs 0).spec c (V0 m c) (fun w => (dats m 0 c).arrAt w (cfgs 0).N) (Proc.tc.devRef main_arg2)
      = argE m c := by
    rw [Pipeline.withArrays_of_ne _ c (V0 m c) _ main_arg2 (by exact (by decide : ∀ w, Pipeline.arrRef spec0 w ≠ main_arg2))]
    exact V_main_arg2 m c
  have hI : Pipeline.withArrays (cfgs 0).spec c (V0 m c) (fun w => (dats m 0 c).arrAt w (cfgs 0).N) (Proc.tc.devRef main_arg1)
      = argInd m c := by
    rw [Pipeline.withArrays_of_ne _ c (V0 m c) _ main_arg1 (by exact (by decide : ∀ w, Pipeline.arrRef spec0 w ≠ main_arg1))]
    exact V_main_arg1 m c
  rw [hA, hE, hI]
  rfl

/-- THE KERNEL'S RUN: every weakly fair execution terminates with the result buffer at the scatter of the reference's
    energies of its arguments, and the arguments unchanged. -/
theorem run : θ_run defs (onTc (τ := τ) (main (F := Ideal))) ⟨m, fun _ => 0, ρ⟩ (fun r => ∀ c : Dev nD,
      r.2.mem ((c.tc : Thread nD τ).loc main_v26)
        = Cert.Tails.kernelTail (argE m c) (argInd m c) (refE m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v26 (Pipeline.mem_restRefs_of main_v26 (by decide) (by decide))).trans (tail_eq m c),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.KernelRun

end
-- ==== Proof.IndexPre.lean ====
/-
  The precondition read back on the position array: the printed predicate is a conjunction of eleven
  "all elements satisfy" tests, the last of which says every position, read as a signed integer, is at
  least 0. If the predicate holds, every position is nonnegative.
-/
import proofs.«170574_j8675833938301_2_alg».proof.Proof.Gen.Pre_finite_inputs
import Idealize.ShloMosaic.Lib.ReduceAll
import Idealize.ShloMosaic.Lib.ValueIdx

namespace Cert.IndexPre

open Idealize.ShloMosaic Idealize.ShloMosaic.ValueIdx Cert.Pre_finite_inputs

/-- The scalar shape has one index. -/
instance : Subsingleton S_.Idx := ⟨fun a b => funext fun d => d.elim0⟩

/-- If the printed predicate is true, every position is nonnegative read signed: the predicate is
    `(… earlier tests …) ∧ all (ind ≥ 0)`; the outer conjunction gives the last test, the reduction by
    `and` over all axes gives it at every index, and the signed comparison with the constant 0 at that
    index is the inequality. -/
theorem ind_nonneg
    (a0 : FVec Ideal S4x131072x128 .f32) (a1 : IVec S4x131072 32) (a2 : FVec Ideal S16384x1 .f32)
    (a3 : FVec Ideal S4x500x128 .f32) (a4 : FVec Ideal S4x500 .f32) (a5 : FVec Ideal S4x200x500 .f32)
    (a6 : FVec Ideal S4x200 .f32) (a7 : FVec Ideal S4x100x200 .f32) (a8 : FVec Ideal S4x100 .f32)
    (a9 : FVec Ideal S4x1x100 .f32) (a10 : FVec Ideal S4x1 .f32)
    (h : Cert.Pre_finite_inputs.fn (F := Ideal) a0 a1 a2 a3 a4 a5 a6 a7 a8 a9 a10 = fun _ => 1#1) :
    ∀ i, 0 ≤ (a1 i).toInt := by
  intro i
  have h0 := congrFun h ValueIdx.ix0
  unfold Cert.Pre_finite_inputs.fn Cert.Pre_finite_inputs.fn_part1 Cert.Pre_finite_inputs.fn_part2
    Cert.Pre_finite_inputs.fn_part3 at h0
  dsimp only at h0
  change IntOp.andi _ _ = 1#1 at h0
  obtain ⟨-, h1⟩ := IntOp.andi_eq_one.1 h0
  have h2 := Host.reduce_andi_all _ _ _ _ _ h1 i
  change IntOp.cmpi .sge (a1 i) 0#32 = 1#1 at h2
  have h3 := IntOp.cmpi_sge.1 h2
  simpa using h3

end Cert.IndexPre
-- ==== Proof.lean ====
/-
  The certificate of the per-atom-type energy network.

  Both programs compute, for every atom (t, n), the energy of a three-layer rectified network of its 128 features with the
  weights of its type t, and add the energies into the molecule rows that the integer positions name. The kernel pads
  the hidden widths 500, 200, 100 with zeros to 512, 256, 128 and runs the layers on 4096-atom tiles; a padded unit has
  zero weights and zero bias, so it stays zero through every rectifier and contributes nothing: the tiles' energies are the
  reference's. The kernel then sums energies per molecule into a zero vector and adds e, where the reference adds them into
  e directly after wrapping negative positions around; for positions that are not negative (the precondition's last
  conjunct) the two are the same sum over the atoms of a molecule. The three frames are the generated runs; the ideal pass
  rewrote nothing, so there is nothing to preserve.
-/
import proofs.«170574_j8675833938301_2_alg».proof.Defs
import proofs.«170574_j8675833938301_2_alg».proof.Proof.Gen.Kernel
import proofs.«170574_j8675833938301_2_alg».proof.Proof.Gen.Kernel.Skeleton
import proofs.«170574_j8675833938301_2_alg».proof.Proof.Gen.Kernel.Launch
import proofs.«170574_j8675833938301_2_alg».proof.Proof.Gen.Kernel.Points
import proofs.«170574_j8675833938301_2_alg».proof.Proof.Gen.Kernel.Frame
import proofs.«170574_j8675833938301_2_alg».proof.Proof.Gen.KernelIdeal
import proofs.«170574_j8675833938301_2_alg».proof.Proof.Gen.KernelIdeal.Skeleton
import proofs.«170574_j8675833938301_2_alg».proof.Proof.Gen.KernelIdeal.Launch
import proofs.«170574_j8675833938301_2_alg».proof.Proof.Gen.KernelIdeal.Points
import proofs.«170574_j8675833938301_2_alg».proof.Proof.Gen.KernelIdeal.Frame
import proofs.«170574_j8675833938301_2_alg».proof.Proof.Gen.ReferenceIdeal
import proofs.«170574_j8675833938301_2_alg».proof.Proof.Gen.Pre_finite_inputs
import proofs.«170574_j8675833938301_2_alg».proof.Proof.Gen.ReferenceIdeal.Run
import proofs.«170574_j8675833938301_2_alg».proof.Proof.Gen.ReferenceIdeal.Read
import proofs.«170574_j8675833938301_2_alg».proof.Proof.KernelRun
import proofs.«170574_j8675833938301_2_alg».proof.Proof.IndexPre
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, whose positions are not negative, the two results are one array: the
    energies agree atom by atom, and the two ways of adding them into the molecule rows agree row by row. -/
theorem algebraic : Cert.algebraic_KernelIdeal_ReferenceIdeal := by
  intro m ρ m' ρ' hpre hagree
  refine ⟨fun c => Cert.Tails.kernelTail (Cert.KernelIdeal.KernelRun.argE m c) (Cert.KernelIdeal.KernelRun.argInd m c)
    (Cert.KernelIdeal.KernelRun.refE m c), Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [a0, a1, a2, a3, a4, a5, a6, a7, a8, a9, a10]
  have hpos := Cert.IndexPre.ind_nonneg _ _ _ _ _ _ _ _ _ _ _ (hpre c)
  refine Eq.trans ?_ (Cert.Tails.tails_eq (Cert.KernelIdeal.KernelRun.argE m c) (Cert.KernelIdeal.KernelRun.argInd m c)
    (Cert.KernelIdeal.KernelRun.refE m c) hpos)
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
